-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v73)) (v3 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v73) = v2 c
          ∧ r.2.mem ((c.tc : Thread Cert.KernelIdeal.nD Cert.KernelIdeal.τ).loc Cert.KernelIdeal.main_v77) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S16x128 : Shape := ⟨2, ![16, 128]⟩
abbrev S16x9 : Shape := ⟨2, ![16, 9]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel
  bcast_S_S16x128 : S_.BroadcastsInDim S16x128 (![] : Fin 0 → Fin S16x128.rank)
  reducesTo_S16x128_S_d0_1 : S16x128.ReducesTo [0, 1] S_
  bcast_S_S16x9 : S_.BroadcastsInDim S16x9 (![] : Fin 0 → Fin S16x9.rank)
  reducesTo_S16x9_S_d0_1 : S16x9.ReducesTo [0, 1] S_

variable [Facts]

def fn_part1 {F : FTy → Type} [FloatOps F] (main_arg4 : FVec F S16x128 .f32) (main_arg5 : FVec F S16x9 .f32) (main_v13 : IVec S_ 1) (main_v16 : IVec S16x4096x3 1) : IVec S_ 1 :=
  let main_c_5 : IVec S_ 1 := constantI S_ 1 1#1
  let main_v17 : IVec S_ 1 := (fun x v => Host.reduce IntOp.andi x v reducesTo_S16x4096x3_S_d0_1_2 h_S_) main_v16 main_c_5
  let main_v18 : IVec S_ 1 := andi main_v13 main_v17
  let main_v19 : FVec F S16x128 .f32 := Host.absf main_arg4
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S16x9 .f32 := Host.absf main_arg5
  let main_cst_8 : FVec F S_ .f32 := constant S_ .f32 0x7F800000#32
  let main_v25 : FVec F S16x9 .f32 := broadcastInDim S16x9 ![] bcast_S_S16x9 main_cst_8
  let main_v26 : IVec S16x9 1 := cmpf .olt main_v24 main_v25
  let main_c_9 : IVec S_ 1 := constantI S_ 1 1#1
  let main_v27 : IVec S_ 1 := (fun x v => Host.reduce IntOp.andi x v reducesTo_S16x9_S_d0_1 h_S_) main_v26 main_c_9
  let main_v28 : IVec S_ 1 := andi main_v23 main_v27
  main_v28

def fn {F : FTy → Type} [FloatOps F] (main_arg0 : FVec F S16x4096x3 .f32) (main_arg1 : FVec F S16x128 .f32) (main_arg2 : FVec F S16x9 .f32) (main_arg3 : FVec F S16x4096x3 .f32) (main_arg4 : FVec F S16x128 .f32) (main_arg5 : FVec F S16x9 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S16x9 .f32 := Host.absf main_arg2
  let main_cst_2 : FVec F S_ .f32 := constant S_ .f32 0x7F800000#32
  let main_v10 : FVec F S16x9 .f32 := broadcastInDim S16x9 ![] bcast_S_S16x9 main_cst_2
  let main_v11 : IVec S16x9 1 := cmpf .olt main_v9 main_v10
  let main_c_3 : IVec S_ 1 := constantI S_ 1 1#1
  let main_v12 : IVec S_ 1 := (fun x v => Host.reduce IntOp.andi x v reducesTo_S16x9_S_d0_1 h_S_) main_v11 main_c_3
  let main_v13 : IVec S_ 1 := andi main_v8 main_v12
  let main_v14 : FVec F S16x4096x3 .f32 := Host.absf main_arg3
  let main_cst_4 : FVec F S_ .f32 := constant S_ .f32 0x7F800000#32
  let main_v15 : FVec F S16x4096x3 .f32 := broadcastInDim S16x4096x3 ![] bcast_S_S16x4096x3 main_cst_4
  let main_v16 : IVec S16x4096x3 1 := cmpf .olt main_v14 main_v15
  fn_part1 (F := F) main_arg4 main_arg5 main_v13 main_v16
-- ==== Kernel.lean ====
abbrev S16x4096x3 : Shape := ⟨3, ![16, 4096, 3]⟩
abbrev S16x128 : Shape := ⟨2, ![16, 128]⟩
abbrev S16x9 : Shape := ⟨2, ![16, 9]⟩
abbrev S16x3 : Shape := ⟨2, ![16, 3]⟩
abbrev S16x1 : Shape := ⟨2, ![16, 1]⟩
abbrev S16 : Shape := ⟨1, ![16]⟩
abbrev S_ : Shape := ⟨0, ![]⟩
abbrev S16x3x3 : Shape := ⟨3, ![16, 3, 3]⟩
abbrev S16x1x3 : Shape := ⟨3, ![16, 1, 3]⟩
abbrev S16x3x4096 : Shape := ⟨3, ![16, 3, 4096]⟩
abbrev S16x1x4096 : Shape := ⟨3, ![16, 1, 4096]⟩
abbrev S1x3x4096 : Shape := ⟨3, ![1, 3, 4096]⟩
abbrev S1x3x512 : Shape := ⟨3, ![1, 3, 512]⟩
abbrev S1x1x4096 : Shape := ⟨3, ![1, 1, 4096]⟩
abbrev S1x1x512 : Shape := ⟨3, ![1, 1, 512]⟩
abbrev S1x4096 : Shape := ⟨2, ![1, 4096]⟩
abbrev S1x512 : Shape := ⟨2, ![1, 512]⟩
abbrev S512x1 : Shape := ⟨2, ![512, 1]⟩
abbrev S512x4096 : Shape := ⟨2, ![512, 4096]⟩
abbrev S4096 : Shape := ⟨1, ![4096]⟩
abbrev S512 : Shape := ⟨1, ![512]⟩

abbrev nBuf : Space → Nat
  | .hbm => 103
  | .vmem => 9
  | .smem => 0
  | _ => 0

abbrev bufTy : (tb : Table) → Fin (tcTables nBuf tb) → BufTy
  | .hbm, ⟨0, _⟩ => ⟨S16x4096x3, .f32⟩
  | .hbm, ⟨1, _⟩ => ⟨S16x128, .f32⟩
  | .hbm, ⟨2, _⟩ => ⟨S16x9, .f32⟩
  | .hbm, ⟨3, _⟩ => ⟨S16x4096x3, .f32⟩
  | .hbm, ⟨4, _⟩ => ⟨S16x128, .f32⟩
  | .hbm, ⟨5, _⟩ => ⟨S16x9, .f32⟩
  | .hbm, ⟨6, _⟩ => ⟨S16x3, .f32⟩
  | .hbm, ⟨7, _⟩ => ⟨S16x3, .f32⟩
  | .hbm, ⟨8, _⟩ => ⟨S16x3, .f32⟩
  | .hbm, ⟨9, _⟩ => ⟨S16x1, .f32⟩
  | .hbm, ⟨10, _⟩ => ⟨S16, .f32⟩
  | .hbm, ⟨11, _⟩ => ⟨S16x1, .f32⟩
  | .hbm, ⟨12, _⟩ => ⟨S16, .f32⟩
  | .hbm, ⟨13, _⟩ => ⟨S16x1, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16x1, .f32⟩
  | .hbm, ⟨27, _⟩ => ⟨S16x1, .f32⟩
  | .hbm, ⟨28, _⟩ => ⟨S16x1, .f32⟩
  | .hbm, ⟨29, _⟩ => ⟨S16x1, .f32⟩
  | .hbm, ⟨30, _⟩ => ⟨S16x1, .f32⟩
  | .hbm, ⟨31, _⟩ => ⟨S16x1, .f32⟩
  | .hbm, ⟨32, _⟩ => ⟨S16x1, .f32⟩
  | .hbm, ⟨33, _⟩ => ⟨S16x1, .f32⟩
  | .hbm, ⟨34, _⟩ => ⟨S16x1, .f32⟩
  | .hbm, ⟨35, _⟩ => ⟨S16x9, .f32⟩
  | .hbm, ⟨36, _⟩ => ⟨S16x3x3, .f32⟩
  | .hbm, ⟨37, _⟩ => ⟨S16, .f32⟩
  | .hbm, ⟨38, _⟩ => ⟨S16x1, .f32⟩
  | .hbm, ⟨39, _⟩ => ⟨S16x1, .f32⟩
  | .hbm, ⟨40, _⟩ => ⟨S16x1, .f32⟩
  | .hbm, ⟨41, _⟩ => ⟨S16x1, .f32⟩
  | .hbm, ⟨42, _⟩ => ⟨S16x1, .f32⟩
  | .hbm, ⟨43, _⟩ => ⟨S16x1, .f32⟩
  | .hbm, ⟨44, _⟩ => ⟨S16x1, .f32⟩
  | .hbm, ⟨45, _⟩ => ⟨S16x1, .f32⟩
  | .hbm, ⟨46, _⟩ => ⟨S16x1, .f32⟩
  | .hbm, ⟨47, _⟩ => ⟨S16x9, .f32⟩
  | .hbm, ⟨48, _⟩ => ⟨S16x3x3, .f32⟩
  | .hbm, ⟨49, _⟩ => ⟨S16, .f32⟩
  | .hbm, ⟨50, _⟩ => ⟨S16x1, .f32⟩
  | .hbm, ⟨51, _⟩ => ⟨S16x1, .f32⟩
  | .hbm, ⟨52, _⟩ => ⟨S16x1, .f32⟩
  | .hbm, ⟨53, _⟩ => ⟨S16x1, .f32⟩
  | .hbm, ⟨54, _⟩ => ⟨S16x1, .f32⟩
  | .hbm, ⟨55, _⟩ => ⟨S16x1, .f32⟩
  | .hbm, ⟨56, _⟩ => ⟨S16x1, .f32⟩
  | .hbm, ⟨57, _⟩ => ⟨S16x1, .f32⟩
  | .hbm, ⟨58, _⟩ => ⟨S16x1, .f32⟩
  | .hbm, ⟨59, _⟩ => ⟨S16x9, .f32⟩
  | .hbm, ⟨60, _⟩ => ⟨S16x3x3, .f32⟩
  | .hbm, ⟨61, _⟩ => ⟨S16x3x3, .f32⟩
  | .hbm, ⟨62, _⟩ => ⟨S16x3x3, .f32⟩
  | .hbm, ⟨63, _⟩ => ⟨S16x4096x3, .f32⟩
  | .hbm, ⟨64, _⟩ => ⟨S16x1x3, .f32⟩
  | .hbm, ⟨65, _⟩ => ⟨S16x4096x3, .f32⟩
  | .hbm, ⟨66, _⟩ => ⟨S16x4096x3, .f32⟩
  | .hbm, ⟨67, _⟩ => ⟨S16x1x3, .f32⟩
  | .hbm, ⟨68, _⟩ => ⟨S16x4096x3, .f32⟩
  | .hbm, ⟨69, _⟩ => ⟨S16x4096x3, .f32⟩
  | .hbm, ⟨70, _⟩ => ⟨S16x3x4096, .f32⟩
  | .hbm, ⟨71, _⟩ => ⟨S16x3x4096, .f32⟩
  | .hbm, ⟨72, _⟩ => ⟨S16x1x4096, .f32⟩
  | .hbm, ⟨73, _⟩ => ⟨S16x1x4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S16x128, .f32⟩
  | .hbm, ⟨84, _⟩ => ⟨S16x128, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S16x9, .f32⟩
  | .hbm, ⟨90, _⟩ => ⟨S16x9, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .local _ .vmem, ⟨0, _⟩ => ⟨S1x3x4096, .f32⟩
  | .local _ .vmem, ⟨1, _⟩ => ⟨S1x3x4096, .f32⟩
  | .local _ .vmem, ⟨2, _⟩ => ⟨S1x3x512, .f32⟩
  | .local _ .vmem, ⟨3, _⟩ => ⟨S1x3x512, .f32⟩
  | .local _ .vmem, ⟨4, _⟩ => ⟨S1x1x4096, .f32⟩
  | .local _ .vmem, ⟨5, _⟩ => ⟨S1x1x4096, .f32⟩
  | .local _ .vmem, ⟨6, _⟩ => ⟨S1x1x512, .f32⟩
  | .local _ .vmem, ⟨7, _⟩ => ⟨S1x1x512, .f32⟩
  | .local _ .vmem, ⟨8, _⟩ => ⟨S1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64_0 : Ref sig .tc := ⟨.hbm, 72, rfl⟩
abbrev main_v64_1 : Ref sig .tc := ⟨.hbm, 73, rfl⟩
abbrev main_cst_1 : Ref sig .tc := ⟨.hbm, 74, rfl⟩
abbrev main_v65 : Ref sig .tc := ⟨.hbm, 75, rfl⟩
abbrev main_cst_2 : Ref sig .tc := ⟨.hbm, 76, rfl⟩
abbrev main_v66 : Ref sig .tc := ⟨.hbm, 77, rfl⟩
abbrev main_cst_3 : Ref sig .tc := ⟨.hbm, 78, rfl⟩
abbrev main_v67 : Ref sig .tc := ⟨.hbm, 79, rfl⟩
abbrev main_cst_4 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_5 : Ref sig .tc := ⟨.hbm, 85, rfl⟩
abbrev main_v72 : Ref sig .tc := ⟨.hbm, 86, rfl⟩
abbrev main_cst_6 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_7 : Ref sig .tc := ⟨.hbm, 91, rfl⟩
abbrev main_v76 : Ref sig .tc := ⟨.hbm, 92, rfl⟩
abbrev main_cst_8 : Ref sig .tc := ⟨.hbm, 93, rfl⟩
abbrev main_v77 : Ref sig .tc := ⟨.hbm, 94, rfl⟩
abbrev main_cst_9 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_cst_11 : Ref sig .tc := ⟨.hbm, 100, rfl⟩
abbrev main_v81 : Ref sig .tc := ⟨.hbm, 101, rfl⟩
abbrev main_v82 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_26 : BitVec 32 := 0#32
  let v51 : BitVec 1 := Scalar.cmpi .ne v50 c0_i32_26
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S16x9_S16x3_0_0 : S16x9.Slices ![0, 0] S16x3
  slices_S16x9_S16x3_0_3 : S16x9.Slices ![0, 3] S16x3
  slices_S16x9_S16x3_0_6 : S16x9.Slices ![0, 6] S16x3
  slices_S16x3_S16x1_0_0 : S16x3.Slices ![0, 0] S16x1
  shapeCasts_S16x1_S16 : S16x1.ShapeCasts S16
  slices_S16x3_S16x1_0_1 : S16x3.Slices ![0, 1] S16x1
  slices_S16x3_S16x1_0_2 : S16x3.Slices ![0, 2] S16x1
  bcast_S_S16 : S_.BroadcastsInDim S16 (![] : Fin 0 → Fin S16.rank)
  bcast_S16_S16x1_0 : S16.BroadcastsInDim S16x1 (![0] : Fin 1 → Fin S16x1.rank)
  concatenates_S16x1_S16x1_S16x1_S16x1_S16x1_S16x1_S16x1_S16x1_S16x1_S16x9_d1 : Shape.Concatenates [S16x1, S16x1, S16x1, S16x1, S16x1, S16x1, S16x1, S16x1, S16x1] S16x9 1
  shapeCasts_S16x9_S16x3x3 : S16x9.ShapeCasts S16x3x3
  bcast_S16x3_S16x1x3_0_2 : S16x3.BroadcastsInDim S16x1x3 (![0, 2] : Fin 2 → Fin S16x1x3.rank)
  bcast_S16x1x3_S16x4096x3_0_1_2 : S16x1x3.BroadcastsInDim S16x4096x3 (![0, 1, 2] : Fin 3 → Fin S16x4096x3.rank)
  transposes_S16x4096x3_S16x3x4096_0_2_1 : S16x4096x3.Transposes [0, 2, 1] S16x3x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x3x4096_S1x1x4096_0_0_0 : ∀ a, (![0, 0, 0] : Fin 3 → Nat) a + S1x1x4096.size a ≤ S1x3x4096.size a
  h_S1x1x4096 : 0 < S1x1x4096.numel
  shapeCasts_S1x1x4096_S1x4096 : S1x1x4096.ShapeCasts S1x4096
  inb_S1x3x4096_S1x1x4096_0_1_0 : ∀ a, (![0, 1, 0] : Fin 3 → Nat) a + S1x1x4096.size a ≤ S1x3x4096.size a
  inb_S1x3x4096_S1x1x4096_0_2_0 : ∀ a, (![0, 2, 0] : Fin 3 → Nat) a + S1x1x4096.size a ≤ S1x3x4096.size a
  inb_S1x3x512_S1x1x512_0_0_0 : ∀ a, (![0, 0, 0] : Fin 3 → Nat) a + S1x1x512.size a ≤ S1x3x512.size a
  h_S1x1x512 : 0 < S1x1x512.numel
  shapeCasts_S1x1x512_S1x512 : S1x1x512.ShapeCasts S1x512
  transposes_S1x512_p1_0_S512x1 : S1x512.Transposes [1, 0] S512x1
  inb_S1x3x512_S1x1x512_0_1_0 : ∀ a, (![0, 1, 0] : Fin 3 → Nat) a + S1x1x512.size a ≤ S1x3x512.size a
  inb_S1x3x512_S1x1x512_0_2_0 : ∀ a, (![0, 2, 0] : Fin 3 → Nat) a + S1x1x512.size a ≤ S1x3x512.size a
  broadcasts_S1x4096_S512x4096 : S1x4096.Broadcasts S512x4096
  broadcasts_S512x1_S512x4096 : S512x1.Broadcasts S512x4096
  reduces_S512x4096_S4096 : S512x4096.Reduces [0] S4096
  shapeCasts_S4096_S1x4096 : S4096.ShapeCasts S1x4096
  reduces_S512x4096_S512 : S512x4096.Reduces [1] S512
  shapeCasts_S512_S512x1 : S512.ShapeCasts S512x1
  transposes_S512x1_p1_0_S1x512 : S512x1.Transposes [1, 0] S1x512
  inb_S1x1x512_S1x1x512_0_0_0 : ∀ a, (![0, 0, 0] : Fin 3 → Nat) a + S1x1x512.size a ≤ S1x1x512.size a
  shapeCasts_S1x512_S1x1x512 : S1x512.ShapeCasts S1x1x512
  inb_S1x1x4096_S1x1x4096_0_0_0 : ∀ a, (![0, 0, 0] : Fin 3 → Nat) a + S1x1x4096.size a ≤ S1x1x4096.size a
  shapeCasts_S1x4096_S1x1x4096 : S1x4096.ShapeCasts S1x1x4096
  reducesTo_S16x1x4096_S_d0_1_2 : S16x1x4096.ReducesTo [0, 1, 2] S_
  h_S_ : 0 < S_.numel
  reducesTo_S16x128_S_d0_1 : S16x128.ReducesTo [0, 1] S_
  reducesTo_S16x9_S_d0_1 : S16x9.ReducesTo [0, 1] S_
  dot_S16x3x3_S16x3x3_S16x3x3_2_1_1_2_0_0_wf : DotDims.WF S16x3x3 S16x3x3 S16x3x3 [2] [1] [1] [2] [0] [0]
  dot_S16x4096x3_S16x3x3_S16x4096x3_2_1_1_2_0_0_wf : DotDims.WF S16x4096x3 S16x3x3 S16x4096x3 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x4096.size a ≤ S16x3x4096.size a
  hwx0_0 : ∀ i : grid0.Coords, EltTy.bits .f32 = 32 ∨ (Rect.block (s := S16x3x4096) S1x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S16x3x4096.size a
  hwx0_1 : ∀ i : grid0.Coords, EltTy.bits .f32 = 32 ∨ (Rect.block (s := S16x3x4096) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S16x1x4096.size a
  hwx0_2 : ∀ i : grid0.Coords, EltTy.bits .f32 = 32 ∨ (Rect.block (s := S16x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S16x1x4096.size a
  hwx0_3 : ∀ i : grid0.Coords, EltTy.bits .f32 = 32 ∨ (Rect.block (s := S16x1x4096) S1x1x512.size (cc0_transform_3 i) (hinb0_3 i)).WholeWords (EltTy.packing .f32)

variable [Facts₀]

def dot_S16x3x3_S16x3x3_S16x3x3_2_1_1_2_0_0 : DotDims S16x3x3 S16x3x3 S16x3x3 where
  lhsContracting := [2]
  rhsContracting := [1]
  lhsNonContracting := [1]
  rhsNonContracting := [2]
  lhsBatch := [0]
  rhsBatch := [0]
  wf := dot_S16x3x3_S16x3x3_S16x3x3_2_1_1_2_0_0_wf
def dot_S16x4096x3_S16x3x3_S16x4096x3_2_1_1_2_0_0 : DotDims S16x4096x3 S16x3x3 S16x4096x3 where
  lhsContracting := [2]
  rhsContracting := [1]
  lhsNonContracting := [1]
  rhsNonContracting := [2]
  lhsBatch := [0]
  rhsBatch := [0]
  wf := dot_S16x4096x3_S16x3x3_S16x4096x3_2_1_1_2_0_0_wf

abbrev win0_0 : Pipeline.Window sig grid0 :=
  Pipeline.Window.ofSpec (Memref.whole main_v62) S1x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v64_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v64_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S16x128 : Shape := ⟨2, ![16, 128]⟩
abbrev S16x9 : Shape := ⟨2, ![16, 9]⟩
abbrev S16x3 : Shape := ⟨2, ![16, 3]⟩
abbrev S16x1 : Shape := ⟨2, ![16, 1]⟩
abbrev S16 : Shape := ⟨1, ![16]⟩
abbrev S_ : Shape := ⟨0, ![]⟩
abbrev S16x3x3 : Shape := ⟨3, ![16, 3, 3]⟩
abbrev S16x1x3 : Shape := ⟨3, ![16, 1, 3]⟩
abbrev S16x4096 : Shape := ⟨2, ![16, 4096]⟩
abbrev S16x4096x1 : Shape := ⟨3, ![16, 4096, 1]⟩
abbrev S16x1x4096 : Shape := ⟨3, ![16, 1, 4096]⟩
abbrev S16x4096x4096 : Shape := ⟨3, ![16, 4096, 4096]⟩

abbrev nBuf : Space → Nat
  | .hbm => 122
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x128, .f32⟩
  | .hbm, ⟨2, _⟩ => ⟨S16x9, .f32⟩
  | .hbm, ⟨3, _⟩ => ⟨S16x4096x3, .f32⟩
  | .hbm, ⟨4, _⟩ => ⟨S16x128, .f32⟩
  | .hbm, ⟨5, _⟩ => ⟨S16x9, .f32⟩
  | .hbm, ⟨6, _⟩ => ⟨S16x3, .f32⟩
  | .hbm, ⟨7, _⟩ => ⟨S16x3, .f32⟩
  | .hbm, ⟨8, _⟩ => ⟨S16x3, .f32⟩
  | .hbm, ⟨9, _⟩ => ⟨S16x1, .f32⟩
  | .hbm, ⟨10, _⟩ => ⟨S16, .f32⟩
  | .hbm, ⟨11, _⟩ => ⟨S16x1, .f32⟩
  | .hbm, ⟨12, _⟩ => ⟨S16, .f32⟩
  | .hbm, ⟨13, _⟩ => ⟨S16x1, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16x1, .f32⟩
  | .hbm, ⟨27, _⟩ => ⟨S16x1, .f32⟩
  | .hbm, ⟨28, _⟩ => ⟨S16x1, .f32⟩
  | .hbm, ⟨29, _⟩ => ⟨S16x1, .f32⟩
  | .hbm, ⟨30, _⟩ => ⟨S16x1, .f32⟩
  | .hbm, ⟨31, _⟩ => ⟨S16x1, .f32⟩
  | .hbm, ⟨32, _⟩ => ⟨S16x1, .f32⟩
  | .hbm, ⟨33, _⟩ => ⟨S16x1, .f32⟩
  | .hbm, ⟨34, _⟩ => ⟨S16x1, .f32⟩
  | .hbm, ⟨35, _⟩ => ⟨S16x9, .f32⟩
  | .hbm, ⟨36, _⟩ => ⟨S16x3x3, .f32⟩
  | .hbm, ⟨37, _⟩ => ⟨S16, .f32⟩
  | .hbm, ⟨38, _⟩ => ⟨S16x1, .f32⟩
  | .hbm, ⟨39, _⟩ => ⟨S16x1, .f32⟩
  | .hbm, ⟨40, _⟩ => ⟨S16x1, .f32⟩
  | .hbm, ⟨41, _⟩ => ⟨S16x1, .f32⟩
  | .hbm, ⟨42, _⟩ => ⟨S16x1, .f32⟩
  | .hbm, ⟨43, _⟩ => ⟨S16x1, .f32⟩
  | .hbm, ⟨44, _⟩ => ⟨S16x1, .f32⟩
  | .hbm, ⟨45, _⟩ => ⟨S16x1, .f32⟩
  | .hbm, ⟨46, _⟩ => ⟨S16x1, .f32⟩
  | .hbm, ⟨47, _⟩ => ⟨S16x9, .f32⟩
  | .hbm, ⟨48, _⟩ => ⟨S16x3x3, .f32⟩
  | .hbm, ⟨49, _⟩ => ⟨S16, .f32⟩
  | .hbm, ⟨50, _⟩ => ⟨S16x1, .f32⟩
  | .hbm, ⟨51, _⟩ => ⟨S16x1, .f32⟩
  | .hbm, ⟨52, _⟩ => ⟨S16x1, .f32⟩
  | .hbm, ⟨53, _⟩ => ⟨S16x1, .f32⟩
  | .hbm, ⟨54, _⟩ => ⟨S16x1, .f32⟩
  | .hbm, ⟨55, _⟩ => ⟨S16x1, .f32⟩
  | .hbm, ⟨56, _⟩ => ⟨S16x1, .f32⟩
  | .hbm, ⟨57, _⟩ => ⟨S16x1, .f32⟩
  | .hbm, ⟨58, _⟩ => ⟨S16x1, .f32⟩
  | .hbm, ⟨59, _⟩ => ⟨S16x9, .f32⟩
  | .hbm, ⟨60, _⟩ => ⟨S16x3x3, .f32⟩
  | .hbm, ⟨61, _⟩ => ⟨S16x3x3, .f32⟩
  | .hbm, ⟨62, _⟩ => ⟨S16x3x3, .f32⟩
  | .hbm, ⟨63, _⟩ => ⟨S16x4096x3, .f32⟩
  | .hbm, ⟨64, _⟩ => ⟨S16x1x3, .f32⟩
  | .hbm, ⟨65, _⟩ => ⟨S16x4096x3, .f32⟩
  | .hbm, ⟨66, _⟩ => ⟨S16x4096x3, .f32⟩
  | .hbm, ⟨67, _⟩ => ⟨S16x1x3, .f32⟩
  | .hbm, ⟨68, _⟩ => ⟨S16x4096x3, .f32⟩
  | .hbm, ⟨69, _⟩ => ⟨S16x4096x3, .f32⟩
  | .hbm, ⟨70, _⟩ => ⟨S16x4096x3, .f32⟩
  | .hbm, ⟨71, _⟩ => ⟨S_, .f32⟩
  | .hbm, ⟨72, _⟩ => ⟨S16x4096, .f32⟩
  | .hbm, ⟨73, _⟩ => ⟨S16x4096x3, .f32⟩
  | .hbm, ⟨74, _⟩ => ⟨S_, .f32⟩
  | .hbm, ⟨75, _⟩ => ⟨S16x4096, .f32⟩
  | .hbm, ⟨76, _⟩ => ⟨S16x4096x1, .f32⟩
  | .hbm, ⟨77, _⟩ => ⟨S16x1x4096, .f32⟩
  | .hbm, ⟨78, _⟩ => ⟨S16x4096x4096, .f32⟩
  | .hbm, ⟨79, _⟩ => ⟨S16x4096x4096, .f32⟩
  | .hbm, ⟨80, _⟩ => ⟨S16x4096x4096, .f32⟩
  | .hbm, ⟨81, _⟩ => ⟨S16x4096x4096, .f32⟩
  | .hbm, ⟨82, _⟩ => ⟨S_, .f32⟩
  | .hbm, ⟨83, _⟩ => ⟨S16x4096x4096, .f32⟩
  | .hbm, ⟨84, _⟩ => ⟨S16x4096x4096, .f32⟩
  | .hbm, ⟨85, _⟩ => ⟨S16x4096x4096, .f32⟩
  | .hbm, ⟨86, _⟩ => ⟨S_, .f32⟩
  | .hbm, ⟨87, _⟩ => ⟨S16x4096x4096, .f32⟩
  | .hbm, ⟨88, _⟩ => ⟨S16x4096x4096, .f32⟩
  | .hbm, ⟨89, _⟩ => ⟨S_, .f32⟩
  | .hbm, ⟨90, _⟩ => ⟨S16x4096, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S16x4096, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S16x128, .f32⟩
  | .hbm, ⟨103, _⟩ => ⟨S16x128, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S16x9, .f32⟩
  | .hbm, ⟨109, _⟩ => ⟨S16x9, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_cst_1 : Ref sig .tc := ⟨.hbm, 71, rfl⟩
abbrev main_v63 : Ref sig .tc := ⟨.hbm, 72, rfl⟩
abbrev main_v64 : Ref sig .tc := ⟨.hbm, 73, rfl⟩
abbrev main_cst_2 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_3 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_4 : Ref sig .tc := ⟨.hbm, 86, rfl⟩
abbrev main_v75 : Ref sig .tc := ⟨.hbm, 87, rfl⟩
abbrev main_v76 : Ref sig .tc := ⟨.hbm, 88, rfl⟩
abbrev main_cst_5 : Ref sig .tc := ⟨.hbm, 89, rfl⟩
abbrev main_v77 : Ref sig .tc := ⟨.hbm, 90, rfl⟩
abbrev main_cst_6 : Ref sig .tc := ⟨.hbm, 91, rfl⟩
abbrev main_v78 : Ref sig .tc := ⟨.hbm, 92, rfl⟩
abbrev main_cst_7 : Ref sig .tc := ⟨.hbm, 93, rfl⟩
abbrev main_v79 : Ref sig .tc := ⟨.hbm, 94, rfl⟩
abbrev main_cst_8 : Ref sig .tc := ⟨.hbm, 95, rfl⟩
abbrev main_v80 : Ref sig .tc := ⟨.hbm, 96, rfl⟩
abbrev main_cst_9 : Ref sig .tc := ⟨.hbm, 97, rfl⟩
abbrev main_v81 : Ref sig .tc := ⟨.hbm, 98, rfl⟩
abbrev main_cst_10 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_11 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_13 : Ref sig .tc := ⟨.hbm, 110, rfl⟩
abbrev main_v90 : Ref sig .tc := ⟨.hbm, 111, rfl⟩
abbrev main_cst_14 : Ref sig .tc := ⟨.hbm, 112, rfl⟩
abbrev main_v91 : Ref sig .tc := ⟨.hbm, 113, rfl⟩
abbrev main_cst_15 : Ref sig .tc := ⟨.hbm, 114, rfl⟩
abbrev main_v92 : Ref sig .tc := ⟨.hbm, 115, rfl⟩
abbrev main_cst_16 : Ref sig .tc := ⟨.hbm, 116, rfl⟩
abbrev main_v93 : Ref sig .tc := ⟨.hbm, 117, rfl⟩
abbrev main_v94 : Ref sig .tc := ⟨.hbm, 118, rfl⟩
abbrev main_cst_17 : Ref sig .tc := ⟨.hbm, 119, rfl⟩
abbrev main_v95 : Ref sig .tc := ⟨.hbm, 120, rfl⟩
abbrev main_v96 : Ref sig .tc := ⟨.hbm, 121, rfl⟩

abbrev nD : Nat := 1
abbrev τ : Topo := Topo.v7x

variable {F : FTy → Type} [FloatOps F]

class Facts₀ : Prop where
  slices_S16x9_S16x3_0_0 : S16x9.Slices ![0, 0] S16x3
  slices_S16x9_S16x3_0_3 : S16x9.Slices ![0, 3] S16x3
  slices_S16x9_S16x3_0_6 : S16x9.Slices ![0, 6] S16x3
  slices_S16x3_S16x1_0_0 : S16x3.Slices ![0, 0] S16x1
  shapeCasts_S16x1_S16 : S16x1.ShapeCasts S16
  slices_S16x3_S16x1_0_1 : S16x3.Slices ![0, 1] S16x1
  slices_S16x3_S16x1_0_2 : S16x3.Slices ![0, 2] S16x1
  bcast_S_S16 : S_.BroadcastsInDim S16 (![] : Fin 0 → Fin S16.rank)
  bcast_S16_S16x1_0 : S16.BroadcastsInDim S16x1 (![0] : Fin 1 → Fin S16x1.rank)
  concatenates_S16x1_S16x1_S16x1_S16x1_S16x1_S16x1_S16x1_S16x1_S16x1_S16x9_d1 : Shape.Concatenates [S16x1, S16x1, S16x1, S16x1, S16x1, S16x1, S16x1, S16x1, S16x1] S16x9 1
  shapeCasts_S16x9_S16x3x3 : S16x9.ShapeCasts S16x3x3
  bcast_S16x3_S16x1x3_0_2 : S16x3.BroadcastsInDim S16x1x3 (![0, 2] : Fin 2 → Fin S16x1x3.rank)
  bcast_S16x1x3_S16x4096x3_0_1_2 : S16x1x3.BroadcastsInDim S16x4096x3 (![0, 1, 2] : Fin 3 → Fin S16x4096x3.rank)
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S_d0_1 : S16x4096.ReducesTo [0, 1] S_
  reducesTo_S16x4096x4096_S16x4096_d1 : S16x4096x4096.ReducesTo [1] S16x4096
  reducesTo_S16x128_S_d0_1 : S16x128.ReducesTo [0, 1] S_
  reducesTo_S16x9_S_d0_1 : S16x9.ReducesTo [0, 1] S_
  dot_S16x3x3_S16x3x3_S16x3x3_2_1_1_2_0_0_wf : DotDims.WF S16x3x3 S16x3x3 S16x3x3 [2] [1] [1] [2] [0] [0]
  dot_S16x4096x3_S16x3x3_S16x4096x3_2_1_1_2_0_0_wf : DotDims.WF S16x4096x3 S16x3x3 S16x4096x3 [2] [1] [1] [2] [0] [0]
  dot_S16x4096x3_S16x4096x3_S16x4096x4096_2_2_1_1_0_0_wf : DotDims.WF S16x4096x3 S16x4096x3 S16x4096x4096 [2] [2] [1] [1] [0] [0]

variable [Facts₀]

def dot_S16x3x3_S16x3x3_S16x3x3_2_1_1_2_0_0 : DotDims S16x3x3 S16x3x3 S16x3x3 where
  lhsContracting := [2]
  rhsContracting := [1]
  lhsNonContracting := [1]
  rhsNonContracting := [2]
  lhsBatch := [0]
  rhsBatch := [0]
  wf := dot_S16x3x3_S16x3x3_S16x3x3_2_1_1_2_0_0_wf
def dot_S16x4096x3_S16x3x3_S16x4096x3_2_1_1_2_0_0 : DotDims S16x4096x3 S16x3x3 S16x4096x3 where
  lhsContracting := [2]
  rhsContracting := [1]
  lhsNonContracting := [1]
  rhsNonContracting := [2]
  lhsBatch := [0]
  rhsBatch := [0]
  wf := dot_S16x4096x3_S16x3x3_S16x4096x3_2_1_1_2_0_0_wf
def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.KB.Runs.lean ====
/-
  What the runs of the kernel body share: the host operations around the region and what they leave alone, each
  window's block at a grid point, the two branch conditions of the body decided over the grid (the accumulator is
  reset where the target-tile coordinate is 0, and the nearest-target distances are written out where it is 7), and
  the staging and scratch memrefs the body is run on.
-/
import proofs.«150051_j5411658793136_2_alg».proof.Proof.Gen.Kernel.Launch
import proofs.«150051_j5411658793136_2_alg».proof.Proof.Gen.Kernel.Skeleton
import proofs.«150051_j5411658793136_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 4000000 in
/-- And each writes only its own result, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window's current staging buffer holds its block at every point, whether the point fetched it or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- No host operation writes an argument and no window stages one, so a run to the region's post leaves all six as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c))⟩) h

/-! ## The body's branch conditions -/

/-- The accumulator is reset: the target-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The accumulator is written out: the target-tile coordinate is 7, the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body runs on -/

/-- One staging buffer of each output window, through which its contents are stated. -/
abbrev VO0_2 : View sig .tc .vmem S1x1x4096 .f32 := (Memref.whole cc0_stg2_0 : Memref sig .tc .vmem S1x1x4096 .f32).view
abbrev VO0_3 : View sig .tc .vmem S1x1x512 .f32 := (Memref.whole cc0_stg3_0 : Memref sig .tc .vmem S1x1x512 .f32).view
/-- Each window's current staging memref at point `t`, and its wholeness. -/
abbrev ms0_0 (t : Fin cfg0.N) : Memref sig .tc .vmem S1x3x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
/-- The running-minimum accumulator: a whole scoped buffer of the kernel's own, carried from point to point. -/
abbrev scM0_0 : Memref sig .tc .vmem S1x4096 .f32 := Memref.whole cc0_scratch0
abbrev VS0_0 : View sig .tc .vmem S1x4096 .f32 := scM0_0.view

/-- The region's invariant, with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KB.RunA.lean ====
/-
  The kernel body run as a whole in one of its three cases — the accumulator is reset (the target-tile coordinate is 0) and the nearest-target distances are not yet written out.  On whole staging memrefs, the two inputs at
  their blocks, the body runs to the end and leaves the inputs as they were, the target-side output tile written, the
  accumulator written, and the prediction-side output untouched; the pieces written are found by running it.
-/
import proofs.«150051_j5411658793136_2_alg».proof.Proof.KB.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two outputs' staging buffers and in the accumulator, with the proof that the
    body runs to the continuation holding them. -/
noncomputable def kernelRun0_A (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) :
    Σ' (L2 : List (View.Piece (Elt F) S1x1x4096 .f32)) (L3 : List (View.Piece (Elt F) S1x1x512 .f32)), { LS0 : List (View.Piece (Elt F) S1x4096 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨[], ?_, ?_, fun xi2 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.KB.RunB.lean ====
/-
  The kernel body run as a whole in one of its three cases — a middle tile: the accumulator is neither reset nor written out.  On whole staging memrefs, the two inputs at
  their blocks, the body runs to the end and leaves the inputs as they were, the target-side output tile written, the
  accumulator written, and the prediction-side output untouched; the pieces written are found by running it.
-/
import proofs.«150051_j5411658793136_2_alg».proof.Proof.KB.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two outputs' staging buffers and in the accumulator, with the proof that the
    body runs to the continuation holding them. -/
noncomputable def kernelRun0_B (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) :
    Σ' (L2 : List (View.Piece (Elt F) S1x1x4096 .f32)) (L3 : List (View.Piece (Elt F) S1x1x512 .f32)), { LS0 : List (View.Piece (Elt F) S1x4096 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨[], ?_, ?_, fun xi2 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.KB.RunC.lean ====
/-
  The kernel body run as a whole in one of its three cases — the last tile (the target-tile coordinate is 7): the accumulator is written out.  On whole staging memrefs, the two inputs at
  their blocks, the body runs to the end and leaves the inputs as they were, the target-side output tile written, the
  accumulator written, and the prediction-side output written; the pieces written are found by running it.
-/
import proofs.«150051_j5411658793136_2_alg».proof.Proof.KB.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two outputs' staging buffers and in the accumulator, with the proof that the
    body runs to the continuation holding them. -/
noncomputable def kernelRun0_C (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) :
    Σ' (L2 : List (View.Piece (Elt F) S1x1x4096 .f32)) (L3 : List (View.Piece (Elt F) S1x1x512 .f32)), { LS0 : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Fr

end
-- ==== Proof.KB.Frame.lean ====
/-
  The frame of the program: what the two outputs' staging buffers and the running-minimum accumulator hold after the body
  at each grid point, by recursion on the point (the accumulator is carried from each point to the next within a batch and
  reset at the batch's first tile); the region's proof data over it; the body's obligation at a generic point, by the three
  whole-body runs; and the run of @main around the region, whose post names every output array and leaves the arguments
  unchanged.
-/
import proofs.«150051_j5411658793136_2_alg».proof.Proof.KB.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the prediction-side output's staging buffer: its pieces read back (none: the window is idle there and the value is never consulted). -/
def out0_A_2 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) : Vec F S1x1x4096 .f32 :=
  VO0_2.read (Elt F) (VO0_2.writes (Elt F) VO0_2.junk (kernelRun0_A c i arg2 harg2 arg3 harg3 arg4 harg4 arg5 harg5 arg6 harg6 hc0 hc1 x0 x1).1)

/-- Case A's pieces for the target-side output tile cover it. -/
theorem cover0_A_3 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) (y : S1x1x512.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1x1x512.size (by sl_kernel_rfl) y

/-- What case A leaves in the target-side output tile's staging buffer. -/
def out0_A_3 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) : Vec F S1x1x512 .f32 :=
  VO0_3.read (Elt F) (VO0_3.writes (Elt F) VO0_3.junk (kernelRun0_A c i arg2 harg2 arg3 harg3 arg4 harg4 arg5 harg5 arg6 harg6 hc0 hc1 x0 x1).2.1)

/-- Case A's pieces for the accumulator cover it. -/
theorem scover0_A_0 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) (y : S1x4096.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x4096.size (by sl_kernel_rfl) y

/-- What case A leaves in the accumulator. -/
def sout0_A_0 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) : Vec F S1x4096 .f32 :=
  VS0_0.read (Elt F) (VS0_0.writes (Elt F) VS0_0.junk (kernelRun0_A c i arg2 harg2 arg3 harg3 arg4 harg4 arg5 harg5 arg6 harg6 hc0 hc1 x0 x1).2.2.1)

/-- What case B leaves in the prediction-side output's staging buffer: its pieces read back (none: the window is idle there and the value is never consulted). -/
def out0_B_2 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) : Vec F S1x1x4096 .f32 :=
  VO0_2.read (Elt F) (VO0_2.writes (Elt F) VO0_2.junk (kernelRun0_B c i arg2 harg2 arg3 harg3 arg4 harg4 arg5 harg5 arg6 harg6 hc0 hc1 x0 x1 xs0).1)

/-- Case B's pieces for the target-side output tile cover it. -/
theorem cover0_B_3 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) (y : S1x1x512.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S1x1x512.size (by sl_kernel_rfl) y

/-- What case B leaves in the target-side output tile's staging buffer. -/
def out0_B_3 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) : Vec F S1x1x512 .f32 :=
  VO0_3.read (Elt F) (VO0_3.writes (Elt F) VO0_3.junk (kernelRun0_B c i arg2 harg2 arg3 harg3 arg4 harg4 arg5 harg5 arg6 harg6 hc0 hc1 x0 x1 xs0).2.1)

/-- Case B's pieces for the accumulator cover it. -/
theorem scover0_B_0 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) (y : S1x4096.Idx) :
    ∃ pc ∈ (kernelRun0_B c i arg2 harg2 arg3 harg3 arg4 harg4 arg5 harg5 arg6 harg6 hc0 hc1 x0 x1 xs0).2.2.1, y ∈ pc.1.set :=
  View.cover_of_tiledL (kernelRun0_B c i arg2 harg2 arg3 harg3 arg4 harg4 arg5 harg5 arg6 harg6 hc0 hc1 x0 x1 xs0).2.2.1 S1x4096.size (by sl_kernel_rfl) y

/-- What case B leaves in the accumulator. -/
def sout0_B_0 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) : Vec F S1x4096 .f32 :=
  VS0_0.read (Elt F) (VS0_0.writes (Elt F) VS0_0.junk (kernelRun0_B c i arg2 harg2 arg3 harg3 arg4 harg4 arg5 harg5 arg6 harg6 hc0 hc1 x0 x1 xs0).2.2.1)

/-- In the last-tile case the pieces stored into the prediction-side output cover its block. -/
theorem cover0_C_2 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) (y : S1x1x4096.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S1x1x4096.size (by sl_kernel_rfl) y

/-- What case C leaves in the prediction-side output's staging buffer: its pieces read back. -/
def out0_C_2 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) : Vec F S1x1x4096 .f32 :=
  VO0_2.read (Elt F) (VO0_2.writes (Elt F) VO0_2.junk (kernelRun0_C c i arg2 harg2 arg3 harg3 arg4 harg4 arg5 harg5 arg6 harg6 hc0 hc1 x0 x1 xs0).1)

/-- Case C's pieces for the target-side output tile cover it. -/
theorem cover0_C_3 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) (y : S1x1x512.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S1x1x512.size (by sl_kernel_rfl) y

/-- What case C leaves in the target-side output tile's staging buffer. -/
def out0_C_3 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) : Vec F S1x1x512 .f32 :=
  VO0_3.read (Elt F) (VO0_3.writes (Elt F) VO0_3.junk (kernelRun0_C c i arg2 harg2 arg3 harg3 arg4 harg4 arg5 harg5 arg6 harg6 hc0 hc1 x0 x1 xs0).2.1)

/-- Case C's pieces for the accumulator cover it. -/
theorem scover0_C_0 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) (y : S1x4096.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S1x4096.size (by sl_kernel_rfl) y

/-- What case C leaves in the accumulator. -/
def sout0_C_0 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) : Vec F S1x4096 .f32 :=
  VS0_0.read (Elt F) (VS0_0.writes (Elt F) VS0_0.junk (kernelRun0_C c i arg2 harg2 arg3 harg3 arg4 harg4 arg5 harg5 arg6 harg6 hc0 hc1 x0 x1 xs0).2.2.1)

/-! ## What the outputs hold after each point -/

/-- The accumulation: what the two outputs' staging buffers and the accumulator hold after the body at position `n`: the case the
    closed forms select there, run on the point's blocks, the accumulator taken from what the position before left. -/
def outsAt0 (c : Dev nD) : (n : ℕ) → n < cfg0.N → Vec F S1x1x4096 .f32 × Vec F S1x1x512 .f32 × Vec F S1x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards what the
    point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The region's proof data -/

/-- The arrays as the region finds them; after the body at point `t` each input's buffer at its block and the outputs' at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the inputs' memrefs hold their blocks; the closed forms say which case the point is in; that case's
    run applies; the invariant hands the body the accumulator at what the point before left (at anything at the first point)
    and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  by_cases h0 : t.val % 8 = 0
  · by_cases h1 : t.val % 8 = 7
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold out0_A_3 sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _)
          iexact Hg
        isplitl [Ho]; · iexact Ho
        isplitl [H0]; · iexact H0
        isplitl [H1]; · iexact H1
        isplitl [H2]; · iexists _; iexact H2
        unfold owns; iexists _; isplitr
        swap; · iexact H3
        ipureintro; exact View.read_writes_of_cover _ _ _ _ _ (cover0_A_3 c _ _ _ _ _ _ _ _ _ _ _ _ _ _ _)
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [H3]; · iexists _; iexact H3
        isplitl [HS0]; · iexists _; iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _)
          iexact Hg
        isplitl [Ho]; · iexact Ho
        isplitl [H0]; · iexact H0
        isplitl [H1]; · iexact H1
        isplitl [H2]; · iexists _; iexact H2
        unfold owns; iexists _; isplitr
        swap; · iexact H3
        ipureintro; exact View.read_writes_of_cover _ _ _ _ _ (cover0_A_3 c _ _ _ _ _ _ _ _ _ _ _ _ _ _ _)
  · by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 3 t = owns (c : Thread nD τ) (ms0_3 t) fullShare ((dats m 0 c).after 3 t) from by
        unfold Dat.leavesExact; rw [liveAt0_3 t], after0_3]
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) _).2.2.2 Set.univ _)
        isplitl [H0]; · iexact H0
        isplitl [H1]; · iexact H1
        isplitl [H2]; · iexists _; iexact H2
        isplitl [H3]; · iexists _; iexact H3
        isplitl [HS0]; · iexact HS0
        iintro ⟨H0, H1, ⟨%e2, H2⟩, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold out0_B_3 sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) _).2.2.2 _ Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _)
          iexact Hg
        isplitl [Ho]; · iexact Ho
        isplitl [H0]; · iexact H0
        isplitl [H1]; · iexact H1
        isplitl [H2]; · iexists _; iexact H2
        unfold owns; iexists _; isplitr
        swap; · iexact H3
        ipureintro; exact View.read_writes_of_cover _ _ _ _ _ (cover0_B_3 c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has every array of the region at what the proof data
    computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Fr

end
-- ==== Proof.KI.Runs.lean ====
/-
  What the runs of the kernel body share: the host operations around the region and what they leave alone, each
  window's block at a grid point, the two branch conditions of the body decided over the grid (the accumulator is
  reset where the target-tile coordinate is 0, and the nearest-target distances are written out where it is 7), and
  the staging and scratch memrefs the body is run on.
-/
import proofs.«150051_j5411658793136_2_alg».proof.Proof.Gen.KernelIdeal.Launch
import proofs.«150051_j5411658793136_2_alg».proof.Proof.Gen.KernelIdeal.Skeleton
import proofs.«150051_j5411658793136_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only unscoped TensorCore buffers. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 4000000 in
/-- And each writes only its own result, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- An input window's current staging buffer holds its block at every point, whether the point fetched it or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- No host operation writes an argument and no window stages one, so a run to the region's post leaves all six as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c))⟩) h

/-! ## The body's branch conditions -/

/-- The accumulator is reset: the target-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The accumulator is written out: the target-tile coordinate is 7, the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body runs on -/

/-- One staging buffer of each output window, through which its contents are stated. -/
abbrev VO0_2 : View sig .tc .vmem S1x1x4096 .f32 := (Memref.whole cc0_stg2_0 : Memref sig .tc .vmem S1x1x4096 .f32).view
abbrev VO0_3 : View sig .tc .vmem S1x1x512 .f32 := (Memref.whole cc0_stg3_0 : Memref sig .tc .vmem S1x1x512 .f32).view
/-- Each window's current staging memref at point `t`, and its wholeness. -/
abbrev ms0_0 (t : Fin cfg0.N) : Memref sig .tc .vmem S1x3x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
/-- The running-minimum accumulator: a whole scoped buffer of the kernel's own, carried from point to point. -/
abbrev scM0_0 : Memref sig .tc .vmem S1x4096 .f32 := Memref.whole cc0_scratch0
abbrev VS0_0 : View sig .tc .vmem S1x4096 .f32 := scM0_0.view

/-- The region's invariant, with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The kernel body run as a whole in one of its three cases — the accumulator is reset (the target-tile coordinate is 0) and the nearest-target distances are not yet written out.  On whole staging memrefs, the two inputs at
  their blocks, the body runs to the end and leaves the inputs as they were, the target-side output tile written, the
  accumulator written, and the prediction-side output untouched; the pieces written are found by running it.
-/
import proofs.«150051_j5411658793136_2_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two outputs' staging buffers and in the accumulator, with the proof that the
    body runs to the continuation holding them. -/
noncomputable def kernelRun0_A (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) :
    Σ' (L2 : List (View.Piece (Elt F) S1x1x4096 .f32)) (L3 : List (View.Piece (Elt F) S1x1x512 .f32)), { LS0 : List (View.Piece (Elt F) S1x4096 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨[], ?_, ?_, fun xi2 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.RunB.lean ====
/-
  The kernel body run as a whole in one of its three cases — a middle tile: the accumulator is neither reset nor written out.  On whole staging memrefs, the two inputs at
  their blocks, the body runs to the end and leaves the inputs as they were, the target-side output tile written, the
  accumulator written, and the prediction-side output untouched; the pieces written are found by running it.
-/
import proofs.«150051_j5411658793136_2_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two outputs' staging buffers and in the accumulator, with the proof that the
    body runs to the continuation holding them. -/
noncomputable def kernelRun0_B (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) :
    Σ' (L2 : List (View.Piece (Elt F) S1x1x4096 .f32)) (L3 : List (View.Piece (Elt F) S1x1x512 .f32)), { LS0 : List (View.Piece (Elt F) S1x4096 .f32) //
      ∀ (xi2 : Vec F S1x1x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨[], ?_, ?_, fun xi2 E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.RunC.lean ====
/-
  The kernel body run as a whole in one of its three cases — the last tile (the target-tile coordinate is 7): the accumulator is written out.  On whole staging memrefs, the two inputs at
  their blocks, the body runs to the end and leaves the inputs as they were, the target-side output tile written, the
  accumulator written, and the prediction-side output written; the pieces written are found by running it.
-/
import proofs.«150051_j5411658793136_2_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two outputs' staging buffers and in the accumulator, with the proof that the
    body runs to the continuation holding them. -/
noncomputable def kernelRun0_C (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) :
    Σ' (L2 : List (View.Piece (Elt F) S1x1x4096 .f32)) (L3 : List (View.Piece (Elt F) S1x1x512 .f32)), { LS0 : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Fr

end
-- ==== Proof.KI.Frame.lean ====
/-
  The frame of the program: what the two outputs' staging buffers and the running-minimum accumulator hold after the body
  at each grid point, by recursion on the point (the accumulator is carried from each point to the next within a batch and
  reset at the batch's first tile); the region's proof data over it; the body's obligation at a generic point, by the three
  whole-body runs; and the run of @main around the region, whose post names every output array and leaves the arguments
  unchanged.
-/
import proofs.«150051_j5411658793136_2_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the prediction-side output's staging buffer: its pieces read back (none: the window is idle there and the value is never consulted). -/
def out0_A_2 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) : Vec F S1x1x4096 .f32 :=
  VO0_2.read (Elt F) (VO0_2.writes (Elt F) VO0_2.junk (kernelRun0_A c i arg2 harg2 arg3 harg3 arg4 harg4 arg5 harg5 arg6 harg6 hc0 hc1 x0 x1).1)

/-- Case A's pieces for the target-side output tile cover it. -/
theorem cover0_A_3 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) (y : S1x1x512.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1x1x512.size (by sl_kernel_rfl) y

/-- What case A leaves in the target-side output tile's staging buffer. -/
def out0_A_3 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) : Vec F S1x1x512 .f32 :=
  VO0_3.read (Elt F) (VO0_3.writes (Elt F) VO0_3.junk (kernelRun0_A c i arg2 harg2 arg3 harg3 arg4 harg4 arg5 harg5 arg6 harg6 hc0 hc1 x0 x1).2.1)

/-- Case A's pieces for the accumulator cover it. -/
theorem scover0_A_0 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) (y : S1x4096.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x4096.size (by sl_kernel_rfl) y

/-- What case A leaves in the accumulator. -/
def sout0_A_0 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) : Vec F S1x4096 .f32 :=
  VS0_0.read (Elt F) (VS0_0.writes (Elt F) VS0_0.junk (kernelRun0_A c i arg2 harg2 arg3 harg3 arg4 harg4 arg5 harg5 arg6 harg6 hc0 hc1 x0 x1).2.2.1)

/-- What case B leaves in the prediction-side output's staging buffer: its pieces read back (none: the window is idle there and the value is never consulted). -/
def out0_B_2 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) : Vec F S1x1x4096 .f32 :=
  VO0_2.read (Elt F) (VO0_2.writes (Elt F) VO0_2.junk (kernelRun0_B c i arg2 harg2 arg3 harg3 arg4 harg4 arg5 harg5 arg6 harg6 hc0 hc1 x0 x1 xs0).1)

/-- Case B's pieces for the target-side output tile cover it. -/
theorem cover0_B_3 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) (y : S1x1x512.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S1x1x512.size (by sl_kernel_rfl) y

/-- What case B leaves in the target-side output tile's staging buffer. -/
def out0_B_3 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) : Vec F S1x1x512 .f32 :=
  VO0_3.read (Elt F) (VO0_3.writes (Elt F) VO0_3.junk (kernelRun0_B c i arg2 harg2 arg3 harg3 arg4 harg4 arg5 harg5 arg6 harg6 hc0 hc1 x0 x1 xs0).2.1)

/-- Case B's pieces for the accumulator cover it. -/
theorem scover0_B_0 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) (y : S1x4096.Idx) :
    ∃ pc ∈ (kernelRun0_B c i arg2 harg2 arg3 harg3 arg4 harg4 arg5 harg5 arg6 harg6 hc0 hc1 x0 x1 xs0).2.2.1, y ∈ pc.1.set :=
  View.cover_of_tiledL (kernelRun0_B c i arg2 harg2 arg3 harg3 arg4 harg4 arg5 harg5 arg6 harg6 hc0 hc1 x0 x1 xs0).2.2.1 S1x4096.size (by sl_kernel_rfl) y

/-- What case B leaves in the accumulator. -/
def sout0_B_0 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) : Vec F S1x4096 .f32 :=
  VS0_0.read (Elt F) (VS0_0.writes (Elt F) VS0_0.junk (kernelRun0_B c i arg2 harg2 arg3 harg3 arg4 harg4 arg5 harg5 arg6 harg6 hc0 hc1 x0 x1 xs0).2.2.1)

/-- In the last-tile case the pieces stored into the prediction-side output cover its block. -/
theorem cover0_C_2 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) (y : S1x1x4096.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S1x1x4096.size (by sl_kernel_rfl) y

/-- What case C leaves in the prediction-side output's staging buffer: its pieces read back. -/
def out0_C_2 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) : Vec F S1x1x4096 .f32 :=
  VO0_2.read (Elt F) (VO0_2.writes (Elt F) VO0_2.junk (kernelRun0_C c i arg2 harg2 arg3 harg3 arg4 harg4 arg5 harg5 arg6 harg6 hc0 hc1 x0 x1 xs0).1)

/-- Case C's pieces for the target-side output tile cover it. -/
theorem cover0_C_3 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) (y : S1x1x512.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S1x1x512.size (by sl_kernel_rfl) y

/-- What case C leaves in the target-side output tile's staging buffer. -/
def out0_C_3 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) : Vec F S1x1x512 .f32 :=
  VO0_3.read (Elt F) (VO0_3.writes (Elt F) VO0_3.junk (kernelRun0_C c i arg2 harg2 arg3 harg3 arg4 harg4 arg5 harg5 arg6 harg6 hc0 hc1 x0 x1 xs0).2.1)

/-- Case C's pieces for the accumulator cover it. -/
theorem scover0_C_0 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) (y : S1x4096.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S1x4096.size (by sl_kernel_rfl) y

/-- What case C leaves in the accumulator. -/
def sout0_C_0 (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) : Vec F S1x4096 .f32 :=
  VS0_0.read (Elt F) (VS0_0.writes (Elt F) VS0_0.junk (kernelRun0_C c i arg2 harg2 arg3 harg3 arg4 harg4 arg5 harg5 arg6 harg6 hc0 hc1 x0 x1 xs0).2.2.1)

/-! ## What the outputs hold after each point -/

/-- The accumulation: what the two outputs' staging buffers and the accumulator hold after the body at position `n`: the case the
    closed forms select there, run on the point's blocks, the accumulator taken from what the position before left. -/
def outsAt0 (c : Dev nD) : (n : ℕ) → n < cfg0.N → Vec F S1x1x4096 .f32 × Vec F S1x1x512 .f32 × Vec F S1x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator holds anything; afterwards what the
    point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The region's proof data -/

/-- The arrays as the region finds them; after the body at point `t` each input's buffer at its block and the outputs' at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the inputs' memrefs hold their blocks; the closed forms say which case the point is in; that case's
    run applies; the invariant hands the body the accumulator at what the point before left (at anything at the first point)
    and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  by_cases h0 : t.val % 8 = 0
  · by_cases h1 : t.val % 8 = 7
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold out0_A_3 sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _)
          iexact Hg
        isplitl [Ho]; · iexact Ho
        isplitl [H0]; · iexact H0
        isplitl [H1]; · iexact H1
        isplitl [H2]; · iexists _; iexact H2
        unfold owns; iexists _; isplitr
        swap; · iexact H3
        ipureintro; exact View.read_writes_of_cover _ _ _ _ _ (cover0_A_3 c _ _ _ _ _ _ _ _ _ _ _ _ _ _ _)
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [H3]; · iexists _; iexact H3
        isplitl [HS0]; · iexists _; iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _)
          iexact Hg
        isplitl [Ho]; · iexact Ho
        isplitl [H0]; · iexact H0
        isplitl [H1]; · iexact H1
        isplitl [H2]; · iexists _; iexact H2
        unfold owns; iexists _; isplitr
        swap; · iexact H3
        ipureintro; exact View.read_writes_of_cover _ _ _ _ _ (cover0_A_3 c _ _ _ _ _ _ _ _ _ _ _ _ _ _ _)
  · by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 3 t = owns (c : Thread nD τ) (ms0_3 t) fullShare ((dats m 0 c).after 3 t) from by
        unfold Dat.leavesExact; rw [liveAt0_3 t], after0_3]
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) _).2.2.2 Set.univ _)
        isplitl [H0]; · iexact H0
        isplitl [H1]; · iexact H1
        isplitl [H2]; · iexists _; iexact H2
        isplitl [H3]; · iexists _; iexact H3
        isplitl [HS0]; · iexact HS0
        iintro ⟨H0, H1, ⟨%e2, H2⟩, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold out0_B_3 sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) _).2.2.2 _ Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _)
          iexact Hg
        isplitl [Ho]; · iexact Ho
        isplitl [H0]; · iexact H0
        isplitl [H1]; · iexact H1
        isplitl [H2]; · iexists _; iexact H2
        unfold owns; iexists _; isplitr
        swap; · iexact H3
        ipureintro; exact View.read_writes_of_cover _ _ _ _ _ (cover0_B_3 c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has every array of the region at what the proof data
    computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Fr

end
-- ==== Proof.KI.Pieces.lean ====
/-
  What each case of the kernel body leaves, as values: the pieces the whole-body runs found, read back.  With `x0` the
  predicted cloud's block (coordinates on axis 1, the 4096 points on axis 2) and `x1` the target tile (512 points), the body
  forms the 512 x 4096 array of squared distances of the tile's points to the predicted points; its minima over the tile (per
  predicted point), clamped at zero, are folded into the accumulator by an elementwise minimum; its minima over the predicted
  points (per tile point), clamped at zero, are the target-side output tile; at the last tile the accumulator is the
  prediction-side output block.
-/
import proofs.«150051_j5411658793136_2_alg».proof.Proof.KI.Frame
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.Tactic
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Coordinate row `d` of the predicted cloud's block, as the body loads it. -/
abbrev predRow0 (x0 : Vec F S1x3x4096 .f32) : Vec F S1x1x4096 .f32 := View.ld x0 (Rect.unit (s := S1x3x4096) ![0, 0, 0] S1x1x4096.size inb_S1x3x4096_S1x1x4096_0_0_0)
abbrev predRow1 (x0 : Vec F S1x3x4096 .f32) : Vec F S1x1x4096 .f32 := View.ld x0 (Rect.unit (s := S1x3x4096) ![0, 1, 0] S1x1x4096.size inb_S1x3x4096_S1x1x4096_0_1_0)
abbrev predRow2 (x0 : Vec F S1x3x4096 .f32) : Vec F S1x1x4096 .f32 := View.ld x0 (Rect.unit (s := S1x3x4096) ![0, 2, 0] S1x1x4096.size inb_S1x3x4096_S1x1x4096_0_2_0)
/-- Coordinate row `d` of the target tile, as the body loads it. -/
abbrev targRow0 (x1 : Vec F S1x3x512 .f32) : Vec F S1x1x512 .f32 := View.ld x1 (Rect.unit (s := S1x3x512) ![0, 0, 0] S1x1x512.size inb_S1x3x512_S1x1x512_0_0_0)
abbrev targRow1 (x1 : Vec F S1x3x512 .f32) : Vec F S1x1x512 .f32 := View.ld x1 (Rect.unit (s := S1x3x512) ![0, 1, 0] S1x1x512.size inb_S1x3x512_S1x1x512_0_1_0)
abbrev targRow2 (x1 : Vec F S1x3x512 .f32) : Vec F S1x1x512 .f32 := View.ld x1 (Rect.unit (s := S1x3x512) ![0, 2, 0] S1x1x512.size inb_S1x3x512_S1x1x512_0_2_0)

/-- The tile's 512 x 4096 array of squared distances. -/
def tileDist (x0 : Vec F S1x3x4096 .f32) (x1 : Vec F S1x3x512 .f32) : FVec F S512x4096 .f32 :=
  k0_pay5 (predRow0 x0) (predRow1 x0) (predRow2 x0) (targRow0 x1) (targRow1 x1) (targRow2 x1)
/-- Its minima over the tile's points, one per predicted point. -/
def tileMin (x0 : Vec F S1x3x4096 .f32) (x1 : Vec F S1x3x512 .f32) : FVec F S1x4096 .f32 :=
  k0_pay6 (predRow0 x0) (predRow1 x0) (predRow2 x0) (targRow0 x1) (targRow1 x1) (targRow2 x1)

/-- Case A: the accumulator ends at the elementwise minimum of what it held (+∞, just stored) and the tile's column
    minima clamped below at zero. -/
theorem sout_A (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) :
    sout0_A_0 c i arg2 harg2 arg3 harg3 arg4 harg4 arg5 harg5 arg6 harg6 hc0 hc1 x0 x1 = k0_pay1 (tileMin x0 x1) (k0_pay7 (F := F)) (k0_pay4 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x4096) hz2, View.readCov_unit_zero (S := S1x4096) _ hz2]
  simp only [View.readAt_eq_ld, harg2.read_unread, harg3.read_unread]
  rfl

/-- Case A: the target-side output tile ends at the clamped row minima of the tile's squared distances. -/
theorem out3_A (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : cond0_0 i) (hc1 : ¬cond0_1 i)
    (x0 : Vec F S1x3x4096 .f32) (x1 : Vec F S1x3x512 .f32) :
    out0_A_3 c i arg2 harg2 arg3 harg3 arg4 harg4 arg5 harg5 arg6 harg6 hc0 hc1 x0 x1 = k0_pay2 (tileDist x0 x1) := by
  unfold out0_A_3
  rw [View.read_writes_eq_canon _ _ _ (cover0_A_3 c i arg2 harg2 arg3 harg3 arg4 harg4 arg5 harg5 arg6 harg6 hc0 hc1 x0 x1)]
  unfold kernelRun0_A
  dsimp only
  sl_unfold_words
  rw [View.canon_unit_zero hz3]
  simp only [View.readAt_eq_ld, harg2.read_unread, harg3.read_unread]
  rfl

/-- Case B: the accumulator ends at the elementwise minimum of what it held (what the point before left) and the tile's column
    minima clamped below at zero. -/
theorem sout_B (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) :
    sout0_B_0 c i arg2 harg2 arg3 harg3 arg4 harg4 arg5 harg5 arg6 harg6 hc0 hc1 x0 x1 xs0 = k0_pay1 (tileMin x0 x1) (k0_pay7 (F := F)) xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S1x4096) hz2]
  rfl

/-- Case B: the target-side output tile ends at the clamped row minima of the tile's squared distances. -/
theorem out3_B (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : ¬cond0_1 i)
    (x0 : Vec F S1x3x4096 .f32) (x1 : Vec F S1x3x512 .f32) (xs0 : Vec F S1x4096 .f32) :
    out0_B_3 c i arg2 harg2 arg3 harg3 arg4 harg4 arg5 harg5 arg6 harg6 hc0 hc1 x0 x1 xs0 = k0_pay2 (tileDist x0 x1) := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  sl_unfold_words
  rw [View.canon_unit_zero hz3]
  simp only [View.readAt_eq_ld, harg2.read_unread, harg3.read_unread]
  rfl

/-- Case C: the accumulator ends at the elementwise minimum of what it held (what the point before left) and the tile's column
    minima clamped below at zero. -/
theorem sout_C (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) :
    sout0_C_0 c i arg2 harg2 arg3 harg3 arg4 harg4 arg5 harg5 arg6 harg6 hc0 hc1 x0 x1 xs0 = k0_pay1 (tileMin x0 x1) (k0_pay7 (F := F)) xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S1x4096) hz2]
  rfl

/-- Case C: the target-side output tile ends at the clamped row minima of the tile's squared distances. -/
theorem out3_C (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) :
    out0_C_3 c i arg2 harg2 arg3 harg3 arg4 harg4 arg5 harg5 arg6 harg6 hc0 hc1 x0 x1 xs0 = k0_pay2 (tileDist x0 x1) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread]
  rfl

/-- The last tile: the prediction-side output block ends at the accumulator's final contents. -/
theorem out2_C (c : Dev nD) (i : grid0.Coords) (arg2 : Memref sig .tc .vmem S1x3x4096 .f32) (harg2 : arg2.IsWhole) (arg3 : Memref sig .tc .vmem S1x3x512 .f32) (harg3 : arg3.IsWhole) (arg4 : Memref sig .tc .vmem S1x1x4096 .f32) (harg4 : arg4.IsWhole) (arg5 : Memref sig .tc .vmem S1x1x512 .f32) (harg5 : arg5.IsWhole) (arg6 : Memref sig .tc .vmem S1x4096 .f32) (harg6 : arg6.IsWhole) (hc0 : ¬cond0_0 i) (hc1 : cond0_1 i)
    (x0 : Vec F S1x3x4096 .f32) (x1 : Vec F S1x3x512 .f32) (xs0 : Vec F S1x4096 .f32) :
    out0_C_2 c i arg2 harg2 arg3 harg3 arg4 harg4 arg5 harg5 arg6 harg6 hc0 hc1 x0 x1 xs0 = k0_pay3 (k0_pay1 (tileMin x0 x1) (k0_pay7 (F := F)) xs0) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz3, View.readCov_unit_zero (S := S1x4096) _ hz2]
  simp only [View.readAt_eq_ld, harg2.read_unread, harg3.read_unread, harg6.read_unread, View.ld_unit_zero (S := S1x4096) hz2]
  rfl

end Cert.KernelIdeal.Val

end
-- ==== Proof.Spec.lean ====
/-
  The chamfer point loss as one function of the two point clouds, over the extended reals.

  For a batch `b`, a predicted point `n` and a target point `m` the squared distance is the sum over the three
  coordinates of the squared differences.  Each predicted point is charged its distance to the nearest target point
  (`rowMin`), each target point its distance to the nearest predicted point (`colMin`); the point loss is the mean of the
  first over all `16 · 4096` predicted points plus the mean of the second over all `16 · 4096` target points.  A squared
  distance is never negative, so clamping it below at zero changes nothing, and an infimum over all target points is the
  infimum of the infima over any partition of them into tiles.
-/
import Idealize.ShloMosaic.PureOps.Ideal
import Idealize.ShloMosaic.Lib.ValueIdx

noncomputable section

namespace Cert.Chamfer

open Idealize.ShloMosaic Idealize.ShloMosaic.ValueIdx

/-- The shape of a batch of point clouds: 16 clouds of 4096 points with 3 coordinates. -/
abbrev SP : Shape := ⟨3, ![16, 4096, 3]⟩

/-- The squared distance between predicted point `n` and target point `m` of batch `b`: the sum over the three
    coordinates of the squared difference, added left to right. -/
def sqDist (P T : SP.Idx → EReal) (b : Fin 16) (n m : Fin 4096) : EReal :=
  ((P (ix3 b n 0) - T (ix3 b m 0)) * (P (ix3 b n 0) - T (ix3 b m 0))
    + (P (ix3 b n 1) - T (ix3 b m 1)) * (P (ix3 b n 1) - T (ix3 b m 1)))
    + (P (ix3 b n 2) - T (ix3 b m 2)) * (P (ix3 b n 2) - T (ix3 b m 2))

/-- The squared distance from predicted point `n` to its nearest target point. -/
def rowMin (P T : SP.Idx → EReal) (b : Fin 16) (n : Fin 4096) : EReal :=
  Finset.univ.inf fun m : Fin 4096 => sqDist P T b n m

/-- The squared distance from target point `m` to its nearest predicted point. -/
def colMin (P T : SP.Idx → EReal) (b : Fin 16) (m : Fin 4096) : EReal :=
  Finset.univ.inf fun n : Fin 4096 => sqDist P T b n m

/-- The point loss: the mean nearest-target distance over the predicted points plus the mean nearest-prediction
    distance over the target points; each mean is a sum started at zero and divided by `65536 = 16 · 4096`, both
    numbers kept as the binary words the programs spell. -/
def pointLoss (P T : SP.Idx → EReal) : EReal :=
  Ideal.div (Ideal.ofBits .f32 0x00000000#32 + ∑ b : Fin 16, ∑ n : Fin 4096, rowMin P T b n) (Ideal.ofBits .f32 0x47800000#32)
    + Ideal.div (Ideal.ofBits .f32 0x00000000#32 + ∑ b : Fin 16, ∑ m : Fin 4096, colMin P T b m) (Ideal.ofBits .f32 0x47800000#32)

/-- Every entry of an array is a real number. -/
def AllReal {ι : Type} (x : ι → EReal) : Prop := ∀ i, ∃ r : ℝ, x i = (r : EReal)

/-- A product of an extended real with itself is never negative. -/
theorem mul_self_nonneg' (x : EReal) : 0 ≤ x * x := by
  rcases le_total 0 x with h | h
  · exact mul_nonneg h h
  · have : x * x = (-x) * (-x) := by rw [neg_mul_neg]
    rw [this]; exact mul_nonneg (EReal.neg_nonneg.2 h) (EReal.neg_nonneg.2 h)

/-- A squared distance is never negative. -/
theorem sqDist_nonneg (P T : SP.Idx → EReal) (b : Fin 16) (n m : Fin 4096) : 0 ≤ sqDist P T b n m := by
  unfold sqDist
  exact add_nonneg (add_nonneg (mul_self_nonneg' _) (mul_self_nonneg' _)) (mul_self_nonneg' _)

end Cert.Chamfer

end
-- ==== Proof.PayLemmas.lean ====
/-
  Two layout operations on a column read at an index, and a minimum-reduction over one axis of a `[512, 4096]` array read
  as an infimum.

  Casting a vector to a column and repeating a column along the rows only move entries.  A minimum-reduction over one
  axis, started from `+∞`, is at each index of the kept axis the infimum over the dropped axis's coordinates: the source
  indices that reduce to a given index are that index with each coordinate of the dropped axis inserted, a fold of `min`
  over them does not depend on the order, and a fold of `min` from the top element is an infimum.
-/
import proofs.«150051_j5411658793136_2_alg».proof.Proof.Gen.KernelIdeal.Skeleton
import proofs.«150051_j5411658793136_2_alg».proof.Proof.Spec
import Idealize.ShloMosaic.Lib.ValueLayout
import Idealize.ShloMosaic.PureOps.Ideal.Laws

noncomputable section

namespace Cert.KernelPay

open Idealize.ShloMosaic Idealize.ShloMosaic.ValueIdx Cert.KernelIdeal Cert.KernelIdeal.Gen

/-! ## Layout operations on a column -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A minimum-reduction over one axis -/

/-- The word `0x7F800000` is `+∞`, the top extended real. -/
theorem ofBits_posInf_f32 : Ideal.ofBits .f32 0x7F800000#32 = ⊤ := by simp [Ideal.ofBits, Ideal.ieee]

/-- A fold of `min` from `+∞` over all of `Fin m` is the infimum over it. -/
theorem fold_min_posInf {m : ℕ} (g g' : Fin m → EReal) (e : ∀ k, g k = g' k) :
    (Finset.univ : Finset (Fin m)).fold min (Ideal.ofBits .f32 0x7F800000#32) g = Finset.univ.inf g' := by
  rw [ofBits_posInf_f32, show g = g' from funext e]
  rfl

/-- A minimum-reduction over ONE axis is, at each reduced index, the fold of `min` from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the rows of a `[512, 4096]` array, started from `+∞`, is at column `n` the infimum over the rows. -/
theorem min_rows_apply (src : FVec Ideal S512x4096 .f32) (h : S512x4096.Reduces [0] S4096) (hφ : FKind.Formats .f32)
    (hacc : (0x7F800000#32 : BitVec 32) = FKind.minimumf.neutral .f32 hφ) (n : Fin 4096) :
    multiReduction (F := Ideal) .minimumf [0] S4096 src 0x7F800000#32 h hφ hacc (ix1 n)
      = Finset.univ.inf fun j : Fin 512 => src (ix2 j n) := by
  rw [multiReduction_minimumf_single]
  refine fold_min_posInf (m := 512) _ _ fun k => congrArg src (funext fun c => Fin.ext ?_)
  match c with
  | ⟨0, _⟩ => rfl
  | ⟨1, _⟩ => rfl

/-- The minimum over the columns of a `[512, 4096]` array, started from `+∞`, is at row `j` the infimum over the columns. -/
theorem min_cols_apply (src : FVec Ideal S512x4096 .f32) (h : S512x4096.Reduces [1] S512) (hφ : FKind.Formats .f32)
    (hacc : (0x7F800000#32 : BitVec 32) = FKind.minimumf.neutral .f32 hφ) (j : Fin 512) :
    multiReduction (F := Ideal) .minimumf [1] S512 src 0x7F800000#32 h hφ hacc (ix1 j)
      = Finset.univ.inf fun n : Fin 4096 => src (ix2 j n) := by
  rw [multiReduction_minimumf_single]
  refine fold_min_posInf (m := 4096) _ _ fun k => congrArg src (funext fun c => Fin.ext ?_)
  match c with
  | ⟨0, _⟩ => rfl
  | ⟨1, _⟩ => rfl

end Cert.KernelPay

end
-- ==== Proof.PayApply.lean ====
/-
  The kernel body's arithmetic read at one index, over the extended reals.

  The body sees three coordinate rows of the predicted cloud (each a `[1, 1, 4096]` array) and three coordinate rows of a
  target tile (each `[1, 1, 512]`).  It lays the predicted rows along the columns and the target rows along the rows of a
  `[512, 4096]` array, so that entry `(j, n)` of the array of squared distances is the sum over the three coordinates of
  the squared difference between predicted point `n` and target point `j`.  Every layout operation on the way (dropping or
  adding a unit axis, turning a row into a column, repeating a row or a column) only moves entries; a minimum-reduction over
  one axis started from `+∞` is the infimum over that axis's coordinates.
-/
import proofs.«150051_j5411658793136_2_alg».proof.Proof.PayLemmas

noncomputable section

namespace Cert.KernelPay

open Idealize.ShloMosaic Idealize.ShloMosaic.ValueIdx Cert.KernelIdeal Cert.KernelIdeal.Gen

/-! ## The payloads at an index -/

/-- Entry `(j, n)` of the array of squared distances: the sum over the three coordinates, added left to right, of the
    squared difference between predicted point `n` and target point `j` of the tile. -/
theorem pay5_apply (v3 v5 v7 : Vec Ideal S1x1x4096 .f32) (v9 v12 v15 : Vec Ideal S1x1x512 .f32) (j : Fin 512) (n : Fin 4096) :
    k0_pay5 (F := Ideal) v3 v5 v7 v9 v12 v15 (ix2 j n)
      = ((v3 (ix3 0 0 n) - v9 (ix3 0 0 j)) * (v3 (ix3 0 0 n) - v9 (ix3 0 0 j))
          + (v5 (ix3 0 0 n) - v12 (ix3 0 0 j)) * (v5 (ix3 0 0 n) - v12 (ix3 0 0 j)))
          + (v7 (ix3 0 0 n) - v15 (ix3 0 0 j)) * (v7 (ix3 0 0 n) - v15 (ix3 0 0 j)) := by
  unfold k0_pay5
  simp only [addf_apply, mulf_apply, subf_apply, broadcastTo_1b_ab_apply, broadcastTo_a1_ab_apply, shapeCast_1ab_ab_apply]
  rw [transpose_ix2_apply, transpose_ix2_apply, transpose_ix2_apply]
  simp only [shapeCast_1ab_ab_apply]

/-- The minimum over the tile's target points at predicted point `n`. -/
theorem pay6_apply (v3 v5 v7 : Vec Ideal S1x1x4096 .f32) (v9 v12 v15 : Vec Ideal S1x1x512 .f32) (n : Fin 4096) :
    k0_pay6 (F := Ideal) v3 v5 v7 v9 v12 v15 (ix2 0 n)
      = Finset.univ.inf fun j : Fin 512 => k0_pay5 (F := Ideal) v3 v5 v7 v9 v12 v15 (ix2 j n) := by
  unfold k0_pay6
  simp only [shapeCast_a_1a_apply]
  exact min_rows_apply _ _ _ _ n

/-- The stored tile of column minima: at target point `j` the infimum over the predicted points, clamped below at zero. -/
theorem pay2_apply (v31 : FVec Ideal S512x4096 .f32) (j : Fin 512) :
    k0_pay2 (F := Ideal) v31 (ix3 0 0 j)
      = max (Finset.univ.inf fun n : Fin 4096 => v31 (ix2 j n)) (Ideal.ofBits .f32 0x00000000#32) := by
  unfold k0_pay2
  simp only [shapeCast_ab_1ab_apply]
  rw [transpose_ix2_apply, maximumf_apply, shapeCast_a_a1_apply, broadcast_apply]
  exact congrArg (fun z => max z (Ideal.ofBits .f32 0x00000000#32)) (min_cols_apply v31 _ _ _ j)

/-- The running row minimum: the minimum of the stored value and the new value clamped below. -/
theorem pay1_apply (v33 v34 : FVec Ideal S1x4096 .f32) (v36 : Vec Ideal S1x4096 .f32) (n : Fin 4096) :
    k0_pay1 (F := Ideal) v33 v34 v36 (ix2 0 n) = min (v36 (ix2 0 n)) (max (v33 (ix2 0 n)) (v34 (ix2 0 n))) := by
  unfold k0_pay1
  rw [shapeCast_self, minimumf_apply, maximumf_apply]

/-- The final row of minima is the stored row with a unit axis added. -/
theorem pay3_apply (v52 : Vec Ideal S1x4096 .f32) (n : Fin 4096) :
    k0_pay3 (F := Ideal) v52 (ix3 0 0 n) = v52 (ix2 0 n) := by
  unfold k0_pay3
  simp only [shapeCast_ab_1ab_apply]

/-- The running minimum starts at `+∞`. -/
theorem pay4_apply (n : Fin 4096) : k0_pay4 (F := Ideal) (ix2 0 n) = ⊤ := by
  unfold k0_pay4
  simp only [shapeCast_self, broadcast_apply]
  exact ofBits_posInf_f32

/-- The clamp's bound is zero. -/
theorem pay7_apply (n : Fin 4096) : k0_pay7 (F := Ideal) (ix2 0 n) = 0 := by
  unfold k0_pay7
  simp only [broadcast_apply]
  exact Ideal.ofBits_zero_f32

end Cert.KernelPay

end
-- ==== Proof.PayTiles.lean ====
/-
  Infima over a range cut into tiles, and a running minimum that visits the tiles in order.

  The 4096 points of a cloud are visited as 8 consecutive tiles of 512.  An infimum over all the points is the infimum
  over the tiles of each tile's infimum.  A running value that starts at the top element and, tile after tile, is
  replaced by the minimum of itself and the tile's infimum clamped below at zero ends, when no entry is negative, at the
  infimum over all the points: the clamp changes nothing on a value that is not negative, and a minimum taken tile by
  tile is the infimum over the tiles seen so far.
-/
import Mathlib.Data.EReal.Basic
import Mathlib.Order.Fin.Basic
import Mathlib.Data.Finset.Lattice.Fold
import Mathlib.Data.Fintype.Basic

noncomputable section

namespace Cert.KernelPay

/-- Clamping below at zero changes nothing on a value that is not negative. -/
theorem max_zero_of_nonneg {x : EReal} (h : 0 ≤ x) : max x 0 = x := max_eq_left h

/-- An infimum of values none of which is negative is not negative. -/
theorem inf_nonneg {ι : Type} [Fintype ι] (g : ι → EReal) (h : ∀ i, 0 ≤ g i) : 0 ≤ Finset.univ.inf g :=
  Finset.le_inf fun i _ => h i

/-- The position of point `j` of tile `k` is below the number of points. -/
theorem tile_pos_lt (k : Fin 8) (j : Fin 512) : 512 * k.val + j.val < 4096 := by
  have := k.isLt; have := j.isLt; omega

/-- THE TILING LAW: an infimum over the 4096 points is the infimum over the 8 tiles of the infimum over each tile's 512
    points. -/
theorem inf_tiles (f : Fin 4096 → EReal) :
    Finset.univ.inf f
      = Finset.univ.inf fun k : Fin 8 => Finset.univ.inf fun j : Fin 512 => f ⟨512 * k.val + j.val, tile_pos_lt k j⟩ := by
  apply le_antisymm
  · exact Finset.le_inf fun k _ => Finset.le_inf fun j _ => Finset.inf_le (Finset.mem_univ _)
  · refine Finset.le_inf fun i _ => ?_
    have hk : i.val / 512 < 8 := by have := i.isLt; omega
    have hj : i.val % 512 < 512 := Nat.mod_lt _ (by norm_num)
    refine (Finset.inf_le (Finset.mem_univ (⟨i.val / 512, hk⟩ : Fin 8))).trans ?_
    refine (Finset.inf_le (Finset.mem_univ (⟨i.val % 512, hj⟩ : Fin 512))).trans ?_
    exact le_of_eq (congrArg f (Fin.ext (by show 512 * (i.val / 512) + i.val % 512 = i.val; omega)))

/-- The infimum over tile `k` of the points, for `k` below 8; the top element from 8 on (no such tile). -/
def tileInf (f : Fin 4096 → EReal) (k : ℕ) : EReal :=
  if h : k < 8 then Finset.univ.inf fun j : Fin 512 => f ⟨512 * k + j.val, tile_pos_lt ⟨k, h⟩ j⟩ else ⊤

/-- Tile `k`'s infimum, at a tile number given as an element of `Fin 8`. -/
theorem tileInf_fin (f : Fin 4096 → EReal) (k : Fin 8) :
    tileInf f k.val = Finset.univ.inf fun j : Fin 512 => f ⟨512 * k.val + j.val, tile_pos_lt k j⟩ := by
  unfold tileInf; rw [dif_pos k.isLt]

/-- A tile's infimum is not negative when no entry is. -/
theorem tileInf_nonneg (f : Fin 4096 → EReal) (h : ∀ i, 0 ≤ f i) (k : ℕ) : 0 ≤ tileInf f k := by
  unfold tileInf
  split
  · exact Finset.le_inf fun j _ => h _
  · exact le_top

/-- The tiling law over the tile numbers `0 … 7` as naturals. -/
theorem inf_eq_inf_range_tileInf (f : Fin 4096 → EReal) : Finset.univ.inf f = (Finset.range 8).inf (tileInf f) := by
  rw [inf_tiles f]
  apply le_antisymm
  · refine Finset.le_inf fun k hk => ?_
    have hk8 : k < 8 := Finset.mem_range.1 hk
    refine (Finset.inf_le (Finset.mem_univ (⟨k, hk8⟩ : Fin 8))).trans (le_of_eq ?_)
    exact (tileInf_fin f ⟨k, hk8⟩).symm
  · refine Finset.le_inf fun k _ => ?_
    refine (Finset.inf_le (Finset.mem_range.2 k.isLt)).trans (le_of_eq ?_)
    exact tileInf_fin f k

/-- THE RUNNING MINIMUM over tiles `0 … k`: at tile 0 the top element is replaced by its minimum with the tile's value
    clamped below at zero; at each later tile the value so far is replaced by its minimum with that tile's value clamped
    below at zero. -/
def acc (tile : ℕ → EReal) : ℕ → EReal
  | 0 => min ⊤ (max (tile 0) 0)
  | k + 1 => min (acc tile k) (max (tile (k + 1)) 0)

theorem acc_zero (tile : ℕ → EReal) : acc tile 0 = min ⊤ (max (tile 0) 0) := rfl

theorem acc_succ (tile : ℕ → EReal) (k : ℕ) : acc tile (k + 1) = min (acc tile k) (max (tile (k + 1)) 0) := rfl

/-- When no tile's value is negative the running minimum after tile `k` is the infimum of the tiles `0 … k`. -/
theorem acc_eq_inf_range (tile : ℕ → EReal) (h : ∀ k, 0 ≤ tile k) (k : ℕ) :
    acc tile k = (Finset.range (k + 1)).inf tile := by
  induction k with
  | zero =>
    rw [acc_zero, max_zero_of_nonneg (h 0), top_inf_eq, Finset.range_one, Finset.inf_singleton]
  | succ k ih =>
    rw [acc_succ, ih, max_zero_of_nonneg (h (k + 1)), Finset.range_add_one (n := k + 1), Finset.inf_insert, inf_comm]

/-- THE RUNNING FORM OF THE TILING LAW: when no entry is negative, the running minimum after the last tile is the
    infimum over all the points. -/
theorem acc_seven_eq_inf (f : Fin 4096 → EReal) (h : ∀ i, 0 ≤ f i) : acc (tileInf f) 7 = Finset.univ.inf f := by
  rw [acc_eq_inf_range (tileInf f) (tileInf_nonneg f h) 7, inf_eq_inf_range_tileInf f]

end Cert.KernelPay

end
-- ==== Proof.KI.Acc.lean ====
/-
  What the kernel's staging buffers hold after each grid point, as values of the two point clouds.

  Grid point `t = 8 b + k` works on batch `b` and target tile `k` (targets `512 k .. 512 k + 511`).  Given that the predicted
  cloud's block holds `P (b, n, d)` at `(0, d, n)` and the target tile's block holds `T (b, 512 k + j, d)` at `(0, d, j)`:
  the tile's array of squared distances holds `sqDist P T b n (512 k + j)` at `(j, n)`; the accumulator after the point holds,
  at predicted point `n`, the running minimum over tiles `0 .. k` of the clamped tile minima (by induction on the point: reset
  where `k = 0`, folded otherwise); the target-side output tile holds the nearest-prediction distance of target `512 k + j`; and at
  the last tile (`k = 7`) the prediction-side output block holds the nearest-target distance of every predicted point of batch `b`.
  A squared distance is never negative, so every clamp at zero is the identity.
-/
import proofs.«150051_j5411658793136_2_alg».proof.Proof.KI.Pieces
import proofs.«150051_j5411658793136_2_alg».proof.Proof.PayApply
import proofs.«150051_j5411658793136_2_alg».proof.Proof.PayTiles
import proofs.«150051_j5411658793136_2_alg».proof.Proof.Spec

set_option maxRecDepth 16384

noncomputable section

namespace Cert.KernelIdeal.Val

open Cert.KernelIdeal Cert.KernelIdeal.Gen Cert.KernelIdeal.Fr Cert.Chamfer Cert.KernelPay
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)

theorem N128 : cfg0.N = 128 := N_0

/-- The batch a grid point works on. -/
def bOf (t : ℕ) (h : t < cfg0.N) : Fin 16 := ⟨t / 8, by have := N128; omega⟩
/-- Target point `j` of the tile a grid point works on, as a point of the whole target cloud. -/
def mOf (t : ℕ) (j : Fin 512) : Fin 4096 := ⟨512 * (t % 8) + j.val, by have := j.isLt; omega⟩

/-- The two input windows' blocks hold the two clouds: coordinates on axis 1, points on axis 2. -/
structure Blocks (P T : SP.Idx → EReal) : Prop where
  pred : ∀ (t : Fin cfg0.N) (d : Fin 3) (n : Fin 4096),
    (iblk m c 0 t : Vec Ideal S1x3x4096 .f32) (ix3 0 d n) = P (ix3 (bOf t.val t.isLt) n d)
  targ : ∀ (t : Fin cfg0.N) (d : Fin 3) (j : Fin 512),
    (iblk m c 1 t : Vec Ideal S1x3x512 .f32) (ix3 0 d j) = T (ix3 (bOf t.val t.isLt) (mOf t.val j) d)

/-! ## The loaded coordinate rows -/

theorem predRow0_apply (x0 : Vec Ideal S1x3x4096 .f32) (n : Fin 4096) : predRow0 x0 (ix3 0 0 n) = x0 (ix3 0 0 n) := by
  show x0 _ = x0 _
  congr 1; funext a; apply Fin.ext
  match a with
  | ⟨0, _⟩ => rfl
  | ⟨1, _⟩ => rfl
  | ⟨2, _⟩ => show 0 + 1 * n.val = n.val; omega
theorem predRow1_apply (x0 : Vec Ideal S1x3x4096 .f32) (n : Fin 4096) : predRow1 x0 (ix3 0 0 n) = x0 (ix3 0 1 n) := by
  show x0 _ = x0 _
  congr 1; funext a; apply Fin.ext
  match a with
  | ⟨0, _⟩ => rfl
  | ⟨1, _⟩ => rfl
  | ⟨2, _⟩ => show 0 + 1 * n.val = n.val; omega
theorem predRow2_apply (x0 : Vec Ideal S1x3x4096 .f32) (n : Fin 4096) : predRow2 x0 (ix3 0 0 n) = x0 (ix3 0 2 n) := by
  show x0 _ = x0 _
  congr 1; funext a; apply Fin.ext
  match a with
  | ⟨0, _⟩ => rfl
  | ⟨1, _⟩ => rfl
  | ⟨2, _⟩ => show 0 + 1 * n.val = n.val; omega
theorem targRow0_apply (x1 : Vec Ideal S1x3x512 .f32) (j : Fin 512) : targRow0 x1 (ix3 0 0 j) = x1 (ix3 0 0 j) := by
  show x1 _ = x1 _
  congr 1; funext a; apply Fin.ext
  match a with
  | ⟨0, _⟩ => rfl
  | ⟨1, _⟩ => rfl
  | ⟨2, _⟩ => show 0 + 1 * j.val = j.val; omega
theorem targRow1_apply (x1 : Vec Ideal S1x3x512 .f32) (j : Fin 512) : targRow1 x1 (ix3 0 0 j) = x1 (ix3 0 1 j) := by
  show x1 _ = x1 _
  congr 1; funext a; apply Fin.ext
  match a with
  | ⟨0, _⟩ => rfl
  | ⟨1, _⟩ => rfl
  | ⟨2, _⟩ => show 0 + 1 * j.val = j.val; omega
theorem targRow2_apply (x1 : Vec Ideal S1x3x512 .f32) (j : Fin 512) : targRow2 x1 (ix3 0 0 j) = x1 (ix3 0 2 j) := by
  show x1 _ = x1 _
  congr 1; funext a; apply Fin.ext
  match a with
  | ⟨0, _⟩ => rfl
  | ⟨1, _⟩ => rfl
  | ⟨2, _⟩ => show 0 + 1 * j.val = j.val; omega

/-! ## The tile's distances and their minima -/

variable {P T : SP.Idx → EReal}

theorem tileDist_apply (B : Blocks m c P T) (t : Fin cfg0.N) (j : Fin 512) (n : Fin 4096) :
    tileDist (F := Ideal) (iblk m c 0 t) (iblk m c 1 t) (ix2 j n) = sqDist P T (bOf t.val t.isLt) n (mOf t.val j) := by
  unfold tileDist
  rw [pay5_apply, predRow0_apply, predRow1_apply, predRow2_apply, targRow0_apply, targRow1_apply, targRow2_apply]
  rw [B.pred t 0 n, B.pred t 1 n, B.pred t 2 n, B.targ t 0 j, B.targ t 1 j, B.targ t 2 j]
  rfl

theorem tileMin_apply (B : Blocks m c P T) (t : Fin cfg0.N) (n : Fin 4096) :
    tileMin (F := Ideal) (iblk m c 0 t) (iblk m c 1 t) (ix2 0 n)
      = tileInf (fun mm => sqDist P T (bOf t.val t.isLt) n mm) (t.val % 8) := by
  have hk : t.val % 8 < 8 := Nat.mod_lt _ (by decide)
  unfold tileMin
  rw [pay6_apply, show t.val % 8 = (⟨t.val % 8, hk⟩ : Fin 8).val from rfl, tileInf_fin]
  refine congrArg (Finset.inf Finset.univ) (funext fun j => ?_)
  exact tileDist_apply m c B t j n

/-! ## The accumulator, by induction on the point -/

theorem acc_eq (B : Blocks m c P T) : ∀ (k : ℕ) (h : k < cfg0.N) (n : Fin 4096),
    (outsAt0 m c k h).2.2 (ix2 0 n) = acc (tileInf fun mm => sqDist P T (bOf k h) n mm) (k % 8)
  | 0, h, n => by
    rw [outsAt0_A m c ⟨0, h⟩ rfl (by show ¬(0 : ℕ) % 8 = 7; decide)]
    dsimp only
    rw [sout_A, pay1_apply, pay4_apply, pay7_apply, tileMin_apply m c B ⟨0, h⟩ n]
    rfl
  | k + 1, h, n => by
    have hN := N128
    by_cases h0 : (k + 1) % 8 = 0
    · have h1 : ¬(k + 1) % 8 = 7 := by omega
      rw [outsAt0_A m c ⟨k + 1, h⟩ h0 h1]
      dsimp only
      rw [sout_A, pay1_apply, pay4_apply, pay7_apply, tileMin_apply m c B ⟨k + 1, h⟩ n]
      show min ⊤ (max (tileInf _ ((k + 1) % 8)) 0) = acc _ ((k + 1) % 8)
      rw [h0]; rfl
    · have ih := acc_eq B k (Nat.lt_of_succ_lt h) n
      have hb : bOf k (Nat.lt_of_succ_lt h) = bOf (k + 1) h := Fin.ext (by show k / 8 = (k + 1) / 8; omega)
      have hm : (k + 1) % 8 = k % 8 + 1 := by omega
      by_cases h1 : (k + 1) % 8 = 7
      · rw [outsAt0_C m c ⟨k + 1, h⟩ h0 h1]
        dsimp only
        rw [sout_C, pay1_apply, pay7_apply, tileMin_apply m c B ⟨k + 1, h⟩ n]
        show min ((outsAt0 m c k _).2.2 (ix2 0 n)) (max (tileInf _ ((k + 1) % 8)) 0) = acc _ ((k + 1) % 8)
        rw [ih, hb, hm]; rfl
      · rw [outsAt0_B m c ⟨k + 1, h⟩ h0 h1]
        dsimp only
        rw [sout_B, pay1_apply, pay7_apply, tileMin_apply m c B ⟨k + 1, h⟩ n]
        show min ((outsAt0 m c k _).2.2 (ix2 0 n)) (max (tileInf _ ((k + 1) % 8)) 0) = acc _ ((k + 1) % 8)
        rw [ih, hb, hm]; rfl

/-! ## The two outputs' staging buffers -/

/-- The target-side output tile after any point: each target's nearest-prediction distance. -/
theorem out3_eq (B : Blocks m c P T) (t : Fin cfg0.N) (j : Fin 512) :
    (outsAt0 m c t.val t.isLt).2.1 (ix3 0 0 j) = colMin P T (bOf t.val t.isLt) (mOf t.val j) := by
  have key : k0_pay2 (F := Ideal) (tileDist (iblk m c 0 t) (iblk m c 1 t)) (ix3 0 0 j)
      = colMin P T (bOf t.val t.isLt) (mOf t.val j) := by
    rw [pay2_apply]
    simp only [tileDist_apply m c B t j]
    rw [Ideal.ofBits_zero_f32]
    exact max_zero_of_nonneg (inf_nonneg _ fun n => sqDist_nonneg P T _ n _)
  by_cases h0 : t.val % 8 = 0
  · have h1 : ¬t.val % 8 = 7 := by omega
    rw [outsAt0_A m c t h0 h1]; dsimp only; rw [out3_A]; exact key
  · by_cases h1 : t.val % 8 = 7
    · rw [outsAt0_C m c t h0 h1]; dsimp only; rw [out3_C]; exact key
    · rw [outsAt0_B m c t h0 h1]; dsimp only; rw [out3_B]; exact key

/-- The prediction-side output block after a batch's last tile: each predicted point's nearest-target distance. -/
theorem out2_eq (B : Blocks m c P T) (t : Fin cfg0.N) (h7 : t.val % 8 = 7) (n : Fin 4096) :
    (outsAt0 m c t.val t.isLt).1 (ix3 0 0 n) = rowMin P T (bOf t.val t.isLt) n := by
  have h0 : ¬t.val % 8 = 0 := by omega
  have hacc := acc_eq m c B t.val t.isLt n
  rw [outsAt0_C m c t h0 h7] at hacc ⊢
  dsimp only at hacc ⊢
  rw [sout_C] at hacc
  rw [out2_C, pay3_apply, hacc, h7]
  exact acc_seven_eq_inf _ fun mm => sqDist_nonneg P T _ n mm

end Cert.KernelIdeal.Val

end
-- ==== Proof.KI.Final.lean ====
/-
  From the blocks the grid points write back to the two output arrays.

  The prediction-side output is written back once per batch, after the batch's last target tile, as the batch's whole row
  of nearest-target distances; the target-side output is written back at every point, as that tile's 512 nearest-prediction
  distances.  An element of a block sits in the array at block index times block size plus its coordinate inside the
  block, so the block of batch `b` (and tile `k`) holds the array's entries `(b, 0, n)` (resp. `(b, 0, 512 k + j)`), and what
  is written there is the array's intended value at that entry.  Every entry of either array lies in exactly such a block
  (of the point `8 b + 7`, resp. `8 b + n / 512`), so after the run each array holds its intended values everywhere.
-/
import proofs.«150051_j5411658793136_2_alg».proof.Proof.KI.Acc
import Idealize.ShloMosaic.Lib.Pipeline.Value

set_option maxRecDepth 16384

noncomputable section

namespace Cert.KernelIdeal.Val

open Cert.KernelIdeal Cert.KernelIdeal.Gen Cert.KernelIdeal.Fr Cert.Chamfer Cert.KernelPay
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (c : Dev nD)
variable {P T : SP.Idx → EReal}

/-! ## Indices with unit leading axes -/

/-- An index of a `[1, 1, n]` array is `(0, 0, its last coordinate)`. -/
theorem eq_ix3_zero_zero {n : ℕ} (i : (⟨3, ![1, 1, n]⟩ : Shape).Idx) : i = ix3 (0 : Fin 1) (0 : Fin 1) (i 2) := by
  have h0 : @Eq (Fin 1) (i 0) 0 := Subsingleton.elim _ _
  have h1 : @Eq (Fin 1) (i 1) 0 := Subsingleton.elim _ _
  exact (eq_ix3 i).trans ((congrArg (fun a : Fin 1 => ix3 a (i 1) (i 2)) h0).trans
    (congrArg (fun a : Fin 1 => ix3 (0 : Fin 1) a (i 2)) h1))

/-! ## The two output arrays as functions of the clouds -/

/-- What the prediction-side output array ends holding: at `(b, 0, n)` the nearest-target distance of predicted point `n`
    of batch `b`. -/
def G2 (P T : SP.Idx → EReal) : S16x1x4096.Idx → EReal := fun i => rowMin P T (i 0) (i 2)

/-- What the target-side output array ends holding: at `(b, 0, mm)` the nearest-prediction distance of target point `mm`
    of batch `b`. -/
def G3 (P T : SP.Idx → EReal) : S16x1x4096.Idx → EReal := fun i => colMin P T (i 0) (i 2)

/-- The block index of the prediction-side output at point `t = 8 b + k` is `(b, 0, 0)`. -/
theorem idx_facts2 : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- The block index of the target-side output at point `t = 8 b + k` is `(b, 0, k)`. -/
theorem idx_facts3 : ∀ t : Fin cfg0.N, win0_3.index t (0 : Fin 3) = t.val / 8 ∧ win0_3.index t (1 : Fin 3) = 0
    ∧ win0_3.index t (2 : Fin 3) = t.val % 8 :=
  (by decide +kernel : ∀ t : Fin grid0.N, _)

/-! ## The prediction-side output -/

/-- What a batch's last point writes back is that batch's block of `G2`. -/
theorem flushed2_eq (B : Blocks m c P T) (t : Fin cfg0.N) (hf : (cfg0.win 2).flush t = true) :
    (dats m 0 c).flushed 2 t = ((cfg0.win 2).blk t).view.read (Elt Ideal) (G2 P T) := by
  have h7 : t.val % 8 = 7 := (flush0_2 t).mp hf
  obtain ⟨e0, e1, e2⟩ := idx_facts2 t
  show (cfg0.win 2).cut (grid0.coords t) ((dats m 0 c).after 2 t) = _
  rw [after0_2]
  funext y
  rw [View.read_apply]
  have hy : y = (ix3 (0 : Fin 1) (0 : Fin 1) (y 2) : S1x1x4096.Idx) := eq_ix3_zero_zero (n := 4096) y
  have hL : (outsAt0 m c t.val t.isLt).1 y = rowMin P T (bOf t.val t.isLt) (y 2) :=
    (congrArg (outsAt0 m c t.val t.isLt).1 hy).trans (out2_eq m c B t h7 (y 2))
  have h0 : ((((cfg0.win 2).blk t).view.emb y) 0 : Fin 16) = bOf t.val t.isLt := Fin.ext (by
    show win0_2.index t (0 : Fin 3) * 1 + 1 * (y 0).val = t.val / 8
    have : (y 0).val < 1 := (y 0).isLt
    omega)
  have h2 : ((((cfg0.win 2).blk t).view.emb y) 2 : Fin 4096) = y 2 := Fin.ext (by
    show win0_2.index t (2 : Fin 3) * 4096 + 1 * (y 2).val = (y 2).val
    omega)
  show (outsAt0 m c t.val t.isLt).1 y
    = rowMin P T ((((cfg0.win 2).blk t).view.emb y) 0) ((((cfg0.win 2).blk t).view.emb y) 2)
  exact hL.trans (congrArg₂ (rowMin P T) h0.symm h2.symm)

/-- An index of the array is in point `t`'s block iff each coordinate is in the block's range on its axis. -/
theorem mem_blk2 (t : Fin cfg0.N) (i : S16x1x4096.Idx) :
    i ∈ ((cfg0.win 2).blk t).view.set ↔ ∀ a : Fin 3, win0_2.index t a * S1x1x4096.size a ≤ (i a).val
      ∧ (i a).val < win0_2.index t a * S1x1x4096.size a + S1x1x4096.size a := by
  show i ∈ ((View.whole main_v64_0).slice (win0_2.rect t)).set ↔ _
  rw [View.set_slice_whole, Rect.mem_set_unit]
  exact Iff.rfl

/-- Every index `(b, 0, n)` of the array is in the block batch `b`'s last point writes back. -/
theorem cover2 (i : S16x1x4096.Idx) :
    ∃ t : Fin cfg0.N, (cfg0.win 2).flush t = true ∧ i ∈ ((cfg0.win 2).blk t).view.set := by
  have hN := N128
  have hi0 : (i 0).val < 16 := (i 0).isLt
  have hi1 : (i 1).val < 1 := (i 1).isLt
  have hi2 : (i 2).val < 4096 := (i 2).isLt
  let t : Fin cfg0.N := ⟨8 * (i 0).val + 7, by omega⟩
  obtain ⟨e0, e1, e2⟩ := idx_facts2 t
  have ht : t.val = 8 * (i 0).val + 7 := rfl
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 4096 ≤ (i 2).val ∧ (i 2).val < win0_2.index t (2 : Fin 3) * 4096 + 4096; omega

/-- THE PREDICTION-SIDE OUTPUT ARRAY after the run: each predicted point's nearest-target distance. -/
theorem final2 (B : Blocks m c P T) :
    ((dats m 0 c).arrAt 2 cfg0.N : S16x1x4096.Idx → EReal) = fun i => rowMin P T (i 0) (i 2) :=
  (dats m 0 c).arrAt_eq_of_cover 2 (G2 P T) (fun t hf => flushed2_eq m c B t hf) cover2

/-! ## The target-side output -/

/-- What every point writes back is its tile's block of `G3`. -/
theorem flushed3_eq (B : Blocks m c P T) (t : Fin cfg0.N) :
    (dats m 0 c).flushed 3 t = ((cfg0.win 3).blk t).view.read (Elt Ideal) (G3 P T) := by
  obtain ⟨e0, e1, e2⟩ := idx_facts3 t
  show (cfg0.win 3).cut (grid0.coords t) ((dats m 0 c).after 3 t) = _
  rw [after0_3]
  funext y
  rw [View.read_apply]
  have hy : y = (ix3 (0 : Fin 1) (0 : Fin 1) (y 2) : S1x1x512.Idx) := eq_ix3_zero_zero (n := 512) y
  have hL : (outsAt0 m c t.val t.isLt).2.1 y = colMin P T (bOf t.val t.isLt) (mOf t.val (y 2)) :=
    (congrArg (outsAt0 m c t.val t.isLt).2.1 hy).trans (out3_eq m c B t (y 2))
  have h0 : ((((cfg0.win 3).blk t).view.emb y) 0 : Fin 16) = bOf t.val t.isLt := Fin.ext (by
    show win0_3.index t (0 : Fin 3) * 1 + 1 * (y 0).val = t.val / 8
    have : (y 0).val < 1 := (y 0).isLt
    omega)
  have h2 : ((((cfg0.win 3).blk t).view.emb y) 2 : Fin 4096) = mOf t.val (y 2) := Fin.ext (by
    show win0_3.index t (2 : Fin 3) * 512 + 1 * (y 2).val = 512 * (t.val % 8) + (y 2).val
    omega)
  show (outsAt0 m c t.val t.isLt).2.1 y
    = colMin P T ((((cfg0.win 3).blk t).view.emb y) 0) ((((cfg0.win 3).blk t).view.emb y) 2)
  exact hL.trans (congrArg₂ (colMin P T) h0.symm h2.symm)

/-- An index of the array is in point `t`'s block iff each coordinate is in the block's range on its axis. -/
theorem mem_blk3 (t : Fin cfg0.N) (i : S16x1x4096.Idx) :
    i ∈ ((cfg0.win 3).blk t).view.set ↔ ∀ a : Fin 3, win0_3.index t a * S1x1x512.size a ≤ (i a).val
      ∧ (i a).val < win0_3.index t a * S1x1x512.size a + S1x1x512.size a := by
  show i ∈ ((View.whole main_v64_1).slice (win0_3.rect t)).set ↔ _
  rw [View.set_slice_whole, Rect.mem_set_unit]
  exact Iff.rfl

/-- Every index `(b, 0, mm)` of the array is in the block the point of batch `b` and tile `mm / 512` writes back. -/
theorem cover3 (i : S16x1x4096.Idx) :
    ∃ t : Fin cfg0.N, (cfg0.win 3).flush t = true ∧ i ∈ ((cfg0.win 3).blk t).view.set := by
  have hN := N128
  have hi0 : (i 0).val < 16 := (i 0).isLt
  have hi1 : (i 1).val < 1 := (i 1).isLt
  have hi2 : (i 2).val < 4096 := (i 2).isLt
  let t : Fin cfg0.N := ⟨8 * (i 0).val + (i 2).val / 512, by omega⟩
  obtain ⟨e0, e1, e2⟩ := idx_facts3 t
  have ht : t.val = 8 * (i 0).val + (i 2).val / 512 := rfl
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 512 ≤ (i 2).val ∧ (i 2).val < win0_3.index t (2 : Fin 3) * 512 + 512; omega

/-- THE TARGET-SIDE OUTPUT ARRAY after the run: each target point's nearest-prediction distance. -/
theorem final3 (B : Blocks m c P T) :
    ((dats m 0 c).arrAt 3 cfg0.N : S16x1x4096.Idx → EReal) = fun i => colMin P T (i 0) (i 2) :=
  (dats m 0 c).arrAt_eq_of_cover 3 (G3 P T) (fun t _ => flushed3_eq m c B t) cover3

end Cert.KernelIdeal.Val

end
-- ==== Proof.KerTail.lean ====
/-
  The host operations after the kernel: from the two arrays of nearest distances to the point loss.

  The kernel leaves, for every batch, the row of nearest-target distances of the predicted points and the row of
  nearest-prediction distances of the target points, each as an array with axes (batch, 1, point).  The host sums
  each array over all three axes starting from zero, divides by 65536, and adds the two quotients.  A sum over all
  indices of such an array is the double sum over batches and points, the middle coordinate being 0; so the result
  is the point loss.
-/
import proofs.«150051_j5411658793136_2_alg».proof.KernelIdeal
import proofs.«150051_j5411658793136_2_alg».proof.Proof.Spec
import Idealize.ShloMosaic.PureOps.Ideal.Laws
import Idealize.ShloMosaic.Lib.ValueIdx

noncomputable section

namespace Cert.KerTail

open Idealize.ShloMosaic Idealize.ShloMosaic.ValueIdx Cert.KernelIdeal Cert.KernelIdeal.Facts₀ Cert.KernelIdeal.Facts

/-- The indices of an array with axes (n0, 1, n2) are the pairs of a first and a last coordinate. -/
def idxEquivUnitMid {n0 n2 : Nat} : (⟨3, ![n0, 1, n2]⟩ : Shape).Idx ≃ Fin n0 × Fin n2 where
  toFun i := (i 0, i 2)
  invFun p := ix3 p.1 (0 : Fin 1) p.2
  left_inv i := by
    funext a
    match a with
    | ⟨0, _⟩ => rfl
    | ⟨1, _⟩ => exact (Fin.fin_one_eq_zero (i 1 : Fin 1)).symm
    | ⟨2, _⟩ => rfl
  right_inv _ := rfl

/-- A sum over all indices of an array with axes (n0, 1, n2) is the double sum over the outer coordinates. -/
theorem sum_idxUnitMid {M : Type} [AddCommMonoid M] {n0 n2 : Nat} (f : (⟨3, ![n0, 1, n2]⟩ : Shape).Idx → M) :
    ∑ i, f i = ∑ a : Fin n0, ∑ c : Fin n2, f (ix3 a (0 : Fin 1) c) := by
  rw [← Equiv.sum_comp (idxEquivUnitMid (n0 := n0) (n2 := n2)).symm f, Fintype.sum_prod_type]
  rfl

variable [Cert.KernelIdeal.Facts]

/-- The host's sum of an array with axes (16, 1, 4096) over all its axes, from the zero word, then divided by the
    word of 65536: the zero word plus the double sum of the entries, divided by that word. -/
theorem mean_eq (x : FVec Ideal S16x1x4096 .f32) (g : Fin 16 → Fin 4096 → EReal)
    (hx : ∀ (b : Fin 16) (n : Fin 4096), x (ix3 b 0 n) = g b n) (j : S_.Idx) :
    Host.divf (F := Ideal) (Host.reduceAdd (F := Ideal) x (constant (F := Ideal) S_ .f32 0x00000000#32)
        reducesTo_S16x1x4096_S_d0_1_2 h_S_) (constant (F := Ideal) S_ .f32 0x47800000#32) j
      = Ideal.div (Ideal.ofBits .f32 0x00000000#32 + ∑ b : Fin 16, ∑ n : Fin 4096, g b n) (Ideal.ofBits .f32 0x47800000#32) := by
  show Ideal.div (Ideal.hostReduceAdd reducesTo_S16x1x4096_S_d0_1_2 x (Ideal.ofBits .f32 0x00000000#32) j)
      (Ideal.ofBits .f32 0x47800000#32) = _
  rw [Ideal.hostReduceAdd_total _ (fun b => b.elim0), sum_idxUnitMid]
  simp only [hx]

/-- The host tail of the kernel program computes the point loss. -/
theorem tail_pointLoss (P T : Cert.Chamfer.SP.Idx → EReal) (x2 x3 : FVec Ideal S16x1x4096 .f32)
    (h2 : ∀ (b : Fin 16) (n : Fin 4096), x2 (ix3 b 0 n) = Cert.Chamfer.rowMin P T b n)
    (h3 : ∀ (b : Fin 16) (m : Fin 4096), x3 (ix3 b 0 m) = Cert.Chamfer.colMin P T b m) :
    addf (Host.divf (F := Ideal) (Host.reduceAdd (F := Ideal) x2 (constant (F := Ideal) S_ .f32 0x00000000#32) reducesTo_S16x1x4096_S_d0_1_2 h_S_) (constant (F := Ideal) S_ .f32 0x47800000#32))
         (Host.divf (F := Ideal) (Host.reduceAdd (F := Ideal) x3 (constant (F := Ideal) S_ .f32 0x00000000#32) reducesTo_S16x1x4096_S_d0_1_2 h_S_) (constant (F := Ideal) S_ .f32 0x47800000#32))
      = fun _ => Cert.Chamfer.pointLoss P T := by
  funext j
  show _ + _ = _
  rw [mean_eq x2 _ h2 j, mean_eq x3 _ h3 j]
  rfl

end Cert.KerTail

end
-- ==== Proof.RefTerms.lean ====
/-
  The reference program's results as closed terms of its arguments, over the extended reals.

  The moved target cloud is the target cloud multiplied on the right by the product of the three axis rotations built
  from the first three affine parameters, then scaled coordinate-wise by the last three and shifted by the middle
  three.  The two auxiliary losses are means of squared differences; the total is the weighted sum of the three
  losses.  Each definition is the composition of the host operations exactly as the program applies them, so that a
  run of the program ends with its result buffers at these terms of the launch contents.
-/
import proofs.«150051_j5411658793136_2_alg».proof.Defs
import proofs.«150051_j5411658793136_2_alg».proof.Proof.Gen.ReferenceIdeal
import Idealize.ShloMosaic.Lib.StableHlo.Run
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

set_option maxRecDepth 8192 in
/-- The moved target cloud: rotate the target points by the product of the three axis rotations, scale, translate. -/
def targMoving (a3 : FVec Ideal S16x4096x3 .f32) (a5 : FVec Ideal S16x9 .f32) : FVec Ideal S16x4096x3 .f32 :=
  (addf (mulf (Host.dotGeneral (F := Ideal) dot_S16x4096x3_S16x3x3_S16x4096x3_2_1_1_2_0_0 none a3 (Host.dotGeneral (F := Ideal) dot_S16x3x3_S16x3x3_S16x3x3_2_1_1_2_0_0 none (Host.dotGeneral (F := Ideal) dot_S16x3x3_S16x3x3_S16x3x3_2_1_1_2_0_0 none (shapeCast _ (concatenate S16x9 1 [⟨S16x1, (broadcastInDim S16x1 ![0] bcast_S16_S16x1_0 (broadcastInDim S16 ![] bcast_S_S16 (constant (F := Ideal) S_ .f32 0x3F800000#32)))⟩, ⟨S16x1, (broadcastInDim S16x1 ![0] bcast_S16_S16x1_0 (broadcastInDim S16 ![] bcast_S_S16 (constant (F := Ideal) S_ .f32 0x00000000#32)))⟩, ⟨S16x1, (broadcastInDim S16x1 ![0] bcast_S16_S16x1_0 (broadcastInDim S16 ![] bcast_S_S16 (constant (F := Ideal) S_ .f32 0x00000000#32)))⟩, ⟨S16x1, (broadcastInDim S16x1 ![0] bcast_S16_S16x1_0 (broadcastInDim S16 ![] bcast_S_S16 (constant (F := Ideal) S_ .f32 0x00000000#32)))⟩, ⟨S16x1, (broadcastInDim S16x1 ![0] bcast_S16_S16x1_0 (Host.cos (F := Ideal) (shapeCast _ (extractStridedSlice S16x1 ![0, 0] (extractStridedSlice S16x3 ![0, 0] a5 slices_S16x9_S16x3_0_0) slices_S16x3_S16x1_0_0) shapeCasts_S16x1_S16)))⟩, ⟨S16x1, (broadcastInDim S16x1 ![0] bcast_S16_S16x1_0 (Host.negf (F := Ideal) (Host.sin (F := Ideal) (shapeCast _ (extractStridedSlice S16x1 ![0, 0] (extractStridedSlice S16x3 ![0, 0] a5 slices_S16x9_S16x3_0_0) slices_S16x3_S16x1_0_0) shapeCasts_S16x1_S16))))⟩, ⟨S16x1, (broadcastInDim S16x1 ![0] bcast_S16_S16x1_0 (broadcastInDim S16 ![] bcast_S_S16 (constant (F := Ideal) S_ .f32 0x00000000#32)))⟩, ⟨S16x1, (broadcastInDim S16x1 ![0] bcast_S16_S16x1_0 (Host.sin (F := Ideal) (shapeCast _ (extractStridedSlice S16x1 ![0, 0] (extractStridedSlice S16x3 ![0, 0] a5 slices_S16x9_S16x3_0_0) slices_S16x3_S16x1_0_0) shapeCasts_S16x1_S16)))⟩, ⟨S16x1, (broadcastInDim S16x1 ![0] bcast_S16_S16x1_0 (Host.cos (F := Ideal) (shapeCast _ (extractStridedSlice S16x1 ![0, 0] (extractStridedSlice S16x3 ![0, 0] a5 slices_S16x9_S16x3_0_0) slices_S16x3_S16x1_0_0) shapeCasts_S16x1_S16)))⟩] concatenates_S16x1_S16x1_S16x1_S16x1_S16x1_S16x1_S16x1_S16x1_S16x1_S16x9_d1) shapeCasts_S16x9_S16x3x3) (shapeCast _ (concatenate S16x9 1 [⟨S16x1, (broadcastInDim S16x1 ![0] bcast_S16_S16x1_0 (Host.cos (F := Ideal) (shapeCast _ (extractStridedSlice S16x1 ![0, 1] (extractStridedSlice S16x3 ![0, 0] a5 slices_S16x9_S16x3_0_0) slices_S16x3_S16x1_0_1) shapeCasts_S16x1_S16)))⟩, ⟨S16x1, (broadcastInDim S16x1 ![0] bcast_S16_S16x1_0 (broadcastInDim S16 ![] bcast_S_S16 (constant (F := Ideal) S_ .f32 0x00000000#32)))⟩, ⟨S16x1, (broadcastInDim S16x1 ![0] bcast_S16_S16x1_0 (Host.sin (F := Ideal) (shapeCast _ (extractStridedSlice S16x1 ![0, 1] (extractStridedSlice S16x3 ![0, 0] a5 slices_S16x9_S16x3_0_0) slices_S16x3_S16x1_0_1) shapeCasts_S16x1_S16)))⟩, ⟨S16x1, (broadcastInDim S16x1 ![0] bcast_S16_S16x1_0 (broadcastInDim S16 ![] bcast_S_S16 (constant (F := Ideal) S_ .f32 0x00000000#32)))⟩, ⟨S16x1, (broadcastInDim S16x1 ![0] bcast_S16_S16x1_0 (broadcastInDim S16 ![] bcast_S_S16 (constant (F := Ideal) S_ .f32 0x3F800000#32)))⟩, ⟨S16x1, (broadcastInDim S16x1 ![0] bcast_S16_S16x1_0 (broadcastInDim S16 ![] bcast_S_S16 (constant (F := Ideal) S_ .f32 0x00000000#32)))⟩, ⟨S16x1, (broadcastInDim S16x1 ![0] bcast_S16_S16x1_0 (Host.negf (F := Ideal) (Host.sin (F := Ideal) (shapeCast _ (extractStridedSlice S16x1 ![0, 1] (extractStridedSlice S16x3 ![0, 0] a5 slices_S16x9_S16x3_0_0) slices_S16x3_S16x1_0_1) shapeCasts_S16x1_S16))))⟩, ⟨S16x1, (broadcastInDim S16x1 ![0] bcast_S16_S16x1_0 (broadcastInDim S16 ![] bcast_S_S16 (constant (F := Ideal) S_ .f32 0x00000000#32)))⟩, ⟨S16x1, (broadcastInDim S16x1 ![0] bcast_S16_S16x1_0 (Host.cos (F := Ideal) (shapeCast _ (extractStridedSlice S16x1 ![0, 1] (extractStridedSlice S16x3 ![0, 0] a5 slices_S16x9_S16x3_0_0) slices_S16x3_S16x1_0_1) shapeCasts_S16x1_S16)))⟩] concatenates_S16x1_S16x1_S16x1_S16x1_S16x1_S16x1_S16x1_S16x1_S16x1_S16x9_d1) shapeCasts_S16x9_S16x3x3)) (shapeCast _ (concatenate S16x9 1 [⟨S16x1, (broadcastInDim S16x1 ![0] bcast_S16_S16x1_0 (Host.cos (F := Ideal) (shapeCast _ (extractStridedSlice S16x1 ![0, 2] (extractStridedSlice S16x3 ![0, 0] a5 slices_S16x9_S16x3_0_0) slices_S16x3_S16x1_0_2) shapeCasts_S16x1_S16)))⟩, ⟨S16x1, (broadcastInDim S16x1 ![0] bcast_S16_S16x1_0 (Host.negf (F := Ideal) (Host.sin (F := Ideal) (shapeCast _ (extractStridedSlice S16x1 ![0, 2] (extractStridedSlice S16x3 ![0, 0] a5 slices_S16x9_S16x3_0_0) slices_S16x3_S16x1_0_2) shapeCasts_S16x1_S16))))⟩, ⟨S16x1, (broadcastInDim S16x1 ![0] bcast_S16_S16x1_0 (broadcastInDim S16 ![] bcast_S_S16 (constant (F := Ideal) S_ .f32 0x00000000#32)))⟩, ⟨S16x1, (broadcastInDim S16x1 ![0] bcast_S16_S16x1_0 (Host.sin (F := Ideal) (shapeCast _ (extractStridedSlice S16x1 ![0, 2] (extractStridedSlice S16x3 ![0, 0] a5 slices_S16x9_S16x3_0_0) slices_S16x3_S16x1_0_2) shapeCasts_S16x1_S16)))⟩, ⟨S16x1, (broadcastInDim S16x1 ![0] bcast_S16_S16x1_0 (Host.cos (F := Ideal) (shapeCast _ (extractStridedSlice S16x1 ![0, 2] (extractStridedSlice S16x3 ![0, 0] a5 slices_S16x9_S16x3_0_0) slices_S16x3_S16x1_0_2) shapeCasts_S16x1_S16)))⟩, ⟨S16x1, (broadcastInDim S16x1 ![0] bcast_S16_S16x1_0 (broadcastInDim S16 ![] bcast_S_S16 (constant (F := Ideal) S_ .f32 0x00000000#32)))⟩, ⟨S16x1, (broadcastInDim S16x1 ![0] bcast_S16_S16x1_0 (broadcastInDim S16 ![] bcast_S_S16 (constant (F := Ideal) S_ .f32 0x00000000#32)))⟩, ⟨S16x1, (broadcastInDim S16x1 ![0] bcast_S16_S16x1_0 (broadcastInDim S16 ![] bcast_S_S16 (constant (F := Ideal) S_ .f32 0x00000000#32)))⟩, ⟨S16x1, (broadcastInDim S16x1 ![0] bcast_S16_S16x1_0 (broadcastInDim S16 ![] bcast_S_S16 (constant (F := Ideal) S_ .f32 0x3F800000#32)))⟩] concatenates_S16x1_S16x1_S16x1_S16x1_S16x1_S16x1_S16x1_S16x1_S16x1_S16x9_d1) shapeCasts_S16x9_S16x3x3))) (broadcastInDim S16x4096x3 ![0, 1, 2] bcast_S16x1x3_S16x4096x3_0_1_2 (broadcastInDim S16x1x3 ![0, 2] bcast_S16x3_S16x1x3_0_2 (extractStridedSlice S16x3 ![0, 6] a5 slices_S16x9_S16x3_0_6)))) (broadcastInDim S16x4096x3 ![0, 1, 2] bcast_S16x1x3_S16x4096x3_0_1_2 (broadcastInDim S16x1x3 ![0, 2] bcast_S16x3_S16x1x3_0_2 (extractStridedSlice S16x3 ![0, 3] a5 slices_S16x9_S16x3_0_3))))

/-- The mean squared difference of the two weight arrays. -/
def coeffLoss (a1 a4 : FVec Ideal S16x128 .f32) : FVec Ideal S_ .f32 :=
  Host.divf (F := Ideal) (Host.reduceAdd (F := Ideal) (mulf (subf a1 a4) (subf a1 a4)) (constant (F := Ideal) S_ .f32 0x00000000#32) reducesTo_S16x128_S_d0_1 h_S_) (constant (F := Ideal) S_ .f32 0x45000000#32)

/-- The mean squared difference of the two affine-parameter arrays. -/
def affineLoss (a2 a5 : FVec Ideal S16x9 .f32) : FVec Ideal S_ .f32 :=
  Host.divf (F := Ideal) (Host.reduceAdd (F := Ideal) (mulf (subf a2 a5) (subf a2 a5)) (constant (F := Ideal) S_ .f32 0x00000000#32) reducesTo_S16x9_S_d0_1 h_S_) (constant (F := Ideal) S_ .f32 0x43100000#32)

/-- The weighted sum of the point loss, the coefficient loss and the affine loss. -/
def total (pl cl al : FVec Ideal S_ .f32) : FVec Ideal S_ .f32 :=
  addf (addf (mulf (constant (F := Ideal) S_ .f32 0x3F800000#32) pl) (mulf (constant (F := Ideal) S_ .f32 0x3F000000#32) cl)) (mulf (constant (F := Ideal) S_ .f32 0x3F000000#32) al)

end Cert.RefSide

end
-- ==== Proof.KI.Tail.lean ====
/-
  The kernel program's four results: what the host operations after the region compute.

  After the region the host sums each of the two output arrays over all its entries from zero and divides by 65536;
  the two quotients add up to the point loss.  The coefficient loss and the affine loss are means of squared
  differences of argument arrays, which no earlier operation has written; the total is the weighted sum of the three.
  When the two output arrays hold, for every batch, the nearest-target distance of each predicted point and the
  nearest-prediction distance of each target point, the four results are the chamfer point loss, the two auxiliary
  losses as closed terms of the arguments, and their weighted sum.
-/
import proofs.«150051_j5411658793136_2_alg».proof.Proof.KI.Frame
import proofs.«150051_j5411658793136_2_alg».proof.Proof.KerTail
import proofs.«150051_j5411658793136_2_alg».proof.Proof.RefTerms
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## What the tail reads -/

/-- The prediction-side output array, read through the tail's valuation, is what the region left in it. -/
theorem arr2 : Pipeline.withArrays (cfgs 0).spec c (V0 m c) (fun w => (dats m 0 c).arrAt w (cfgs 0).N) (Proc.devRef .tc main_v64_0) = (dats m 0 c).arrAt 2 cfg0.N :=
  Pipeline.withArrays_arr spec0 launch0.win.arr_inj c _ _ 2

/-- The target-side output array likewise. -/
theorem arr3 : Pipeline.withArrays (cfgs 0).spec c (V0 m c) (fun w => (dats m 0 c).arrAt w (cfgs 0).N) (Proc.devRef .tc main_v64_1) = (dats m 0 c).arrAt 3 cfg0.N :=
  Pipeline.withArrays_arr spec0 launch0.win.arr_inj c _ _ 3

/-- Argument 1 is no window's array and no earlier operation writes it: the tail reads it as launched. -/
theorem warg1 : Pipeline.withArrays (cfgs 0).spec c (V0 m c) (fun w => (dats m 0 c).arrAt w (cfgs 0).N) (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

/-- Argument 2 is no window's array and no earlier operation writes it: the tail reads it as launched. -/
theorem warg2 : Pipeline.withArrays (cfgs 0).spec c (V0 m c) (fun w => (dats m 0 c).arrAt w (cfgs 0).N) (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)

/-- Argument 4 is no window's array and no earlier operation writes it: the tail reads it as launched. -/
theorem warg4 : Pipeline.withArrays (cfgs 0).spec c (V0 m c) (fun w => (dats m 0 c).arrAt w (cfgs 0).N) (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

/-- Argument 5 is no window's array and no earlier operation writes it: the tail reads it as launched. -/
theorem warg5 : Pipeline.withArrays (cfgs 0).spec c (V0 m c) (fun w => (dats m 0 c).arrAt w (cfgs 0).N) (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

/-! ## The tail over any valuation -/

set_option maxHeartbeats 4000000 in
/-- The point loss, from any valuation whose two output arrays hold the nearest distances. -/
theorem v69_of (W : Valuation τ sig (Elt Ideal)) (P T : Cert.Chamfer.SP.Idx → EReal) (A2 A3 : FVec Ideal S16x1x4096 .f32)
    (eA2 : W (Proc.devRef .tc main_v64_0) = A2) (eA3 : W (Proc.devRef .tc main_v64_1) = A3)
    (g2 : ∀ (b : Fin 16) (n : Fin 4096), A2 (ix3 b 0 n) = Cert.Chamfer.rowMin P T b n)
    (g3 : ∀ (b : Fin 16) (k : Fin 4096), A3 (ix3 b 0 k) = Cert.Chamfer.colMin P T b k) :
    StableHlo.after hostOps1 W (Proc.devRef .tc main_v69) = (fun _ => Cert.Chamfer.pointLoss P T) := by
  after_results
  rw [eA2, eA3]
  exact Cert.KerTail.tail_pointLoss P T A2 A3 g2 g3

set_option maxHeartbeats 8000000 in
/-- The coefficient loss, from any valuation holding the two weight arrays. -/
theorem v73_of (W : Valuation τ sig (Elt Ideal)) (a1 a4 : FVec Ideal S16x128 .f32)
    (e1 : W (Proc.devRef .tc main_arg1) = a1) (e4 : W (Proc.devRef .tc main_arg4) = a4) :
    StableHlo.after hostOps1 W (Proc.devRef .tc main_v73) = Cert.RefSide.coeffLoss a1 a4 := by
  after_results
  rw [e1, e4]
  rfl

set_option maxHeartbeats 16000000 in
/-- The affine loss, from any valuation holding the two affine-parameter arrays. -/
theorem v77_of (W : Valuation τ sig (Elt Ideal)) (a2 a5 : FVec Ideal S16x9 .f32)
    (e2 : W (Proc.devRef .tc main_arg2) = a2) (e5 : W (Proc.devRef .tc main_arg5) = a5) :
    StableHlo.after hostOps1 W (Proc.devRef .tc main_v77) = Cert.RefSide.affineLoss a2 a5 := by
  after_results
  rw [e2, e5]
  rfl

set_option maxHeartbeats 32000000 in
/-- The total, from any valuation holding all of the above. -/
theorem v82_of (W : Valuation τ sig (Elt Ideal)) (P T : Cert.Chamfer.SP.Idx → EReal) (A2 A3 : FVec Ideal S16x1x4096 .f32)
    (a1 a4 : FVec Ideal S16x128 .f32) (a2 a5 : FVec Ideal S16x9 .f32)
    (eA2 : W (Proc.devRef .tc main_v64_0) = A2) (eA3 : W (Proc.devRef .tc main_v64_1) = A3)
    (e1 : W (Proc.devRef .tc main_arg1) = a1) (e4 : W (Proc.devRef .tc main_arg4) = a4)
    (e2 : W (Proc.devRef .tc main_arg2) = a2) (e5 : W (Proc.devRef .tc main_arg5) = a5)
    (g2 : ∀ (b : Fin 16) (n : Fin 4096), A2 (ix3 b 0 n) = Cert.Chamfer.rowMin P T b n)
    (g3 : ∀ (b : Fin 16) (k : Fin 4096), A3 (ix3 b 0 k) = Cert.Chamfer.colMin P T b k) :
    StableHlo.after hostOps1 W (Proc.devRef .tc main_v82)
      = Cert.RefSide.total (fun _ => Cert.Chamfer.pointLoss P T) (Cert.RefSide.coeffLoss a1 a4) (Cert.RefSide.affineLoss a2 a5) := by
  after_results
  rw [eA2, eA3, e1, e4, e2, e5, Cert.KerTail.tail_pointLoss P T A2 A3 g2 g3]
  rfl

/-! ## The four results after the region -/

/-- The point loss the kernel program returns. -/
theorem tail_v69 (P T : Cert.Chamfer.SP.Idx → EReal)
    (h2 : ((dats m 0 c).arrAt 2 cfg0.N : S16x1x4096.Idx → EReal) = fun i => Cert.Chamfer.rowMin P T (i 0) (i 2))
    (h3 : ((dats m 0 c).arrAt 3 cfg0.N : S16x1x4096.Idx → EReal) = fun i => Cert.Chamfer.colMin P T (i 0) (i 2)) :
    Pipeline.afterTail₀ cfgs (dats m) 0 (V0 m) [hostOps1] c main_v69 = (fun _ => Cert.Chamfer.pointLoss P T) :=
  v69_of _ P T _ _ (arr2 m c) (arr3 m c) (fun b n => congrFun h2 (ix3 b 0 n)) (fun b k => congrFun h3 (ix3 b 0 k))

/-- The coefficient loss the kernel program returns. -/
theorem tail_v73 :
    Pipeline.afterTail₀ cfgs (dats m) 0 (V0 m) [hostOps1] c main_v73 = Cert.RefSide.coeffLoss (m ((c : Thread nD τ).loc main_arg1)) (m ((c : Thread nD τ).loc main_arg4)) :=
  v73_of _ _ _ (warg1 m c) (warg4 m c)

/-- The affine loss the kernel program returns. -/
theorem tail_v77 :
    Pipeline.afterTail₀ cfgs (dats m) 0 (V0 m) [hostOps1] c main_v77 = Cert.RefSide.affineLoss (m ((c : Thread nD τ).loc main_arg2)) (m ((c : Thread nD τ).loc main_arg5)) :=
  v77_of _ _ _ (warg2 m c) (warg5 m c)

/-- The total the kernel program returns. -/
theorem tail_v82 (P T : Cert.Chamfer.SP.Idx → EReal)
    (h2 : ((dats m 0 c).arrAt 2 cfg0.N : S16x1x4096.Idx → EReal) = fun i => Cert.Chamfer.rowMin P T (i 0) (i 2))
    (h3 : ((dats m 0 c).arrAt 3 cfg0.N : S16x1x4096.Idx → EReal) = fun i => Cert.Chamfer.colMin P T (i 0) (i 2)) :
    Pipeline.afterTail₀ cfgs (dats m) 0 (V0 m) [hostOps1] c main_v82
      = Cert.RefSide.total (fun _ => Cert.Chamfer.pointLoss P T) (Cert.RefSide.coeffLoss (m ((c : Thread nD τ).loc main_arg1)) (m ((c : Thread nD τ).loc main_arg4))) (Cert.RefSide.affineLoss (m ((c : Thread nD τ).loc main_arg2)) (m ((c : Thread nD τ).loc main_arg5))) :=
  v82_of _ P T _ _ _ _ _ _ (arr2 m c) (arr3 m c) (warg1 m c) (warg4 m c) (warg2 m c) (warg5 m c)
    (fun b n => congrFun h2 (ix3 b 0 n)) (fun b k => congrFun h3 (ix3 b 0 k))

/-- A final state in the frame run's post has the four result buffers at the specification. -/
theorem tail_post (P T : Cert.Chamfer.SP.Idx → EReal)
    (h2 : ((dats m 0 c).arrAt 2 cfg0.N : S16x1x4096.Idx → EReal) = fun i => Cert.Chamfer.rowMin P T (i 0) (i 2))
    (h3 : ((dats m 0 c).arrAt 3 cfg0.N : S16x1x4096.Idx → EReal) = fun i => Cert.Chamfer.colMin P T (i 0) (i 2))
    (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v82)
        = Cert.RefSide.total (fun _ => Cert.Chamfer.pointLoss P T) (Cert.RefSide.coeffLoss (m ((c : Thread nD τ).loc main_arg1)) (m ((c : Thread nD τ).loc main_arg4))) (Cert.RefSide.affineLoss (m ((c : Thread nD τ).loc main_arg2)) (m ((c : Thread nD τ).loc main_arg5)))
      ∧ r.2.mem ((c.tc : Thread nD τ).loc main_v69) = (fun _ => Cert.Chamfer.pointLoss P T)
      ∧ r.2.mem ((c.tc : Thread nD τ).loc main_v73) = Cert.RefSide.coeffLoss (m ((c : Thread nD τ).loc main_arg1)) (m ((c : Thread nD τ).loc main_arg4))
      ∧ r.2.mem ((c.tc : Thread nD τ).loc main_v77) = Cert.RefSide.affineLoss (m ((c : Thread nD τ).loc main_arg2)) (m ((c : Thread nD τ).loc main_arg5)) :=
  ⟨((h c).2 main_v82 (Pipeline.mem_restRefs_of main_v82 (by decide) (by decide))).trans (tail_v82 m c P T h2 h3),
    ((h c).2 main_v69 (Pipeline.mem_restRefs_of main_v69 (by decide) (by decide))).trans (tail_v69 m c P T h2 h3),
    ((h c).2 main_v73 (Pipeline.mem_restRefs_of main_v73 (by decide) (by decide))).trans (tail_v73 m c),
    ((h c).2 main_v77 (Pipeline.mem_restRefs_of main_v77 (by decide) (by decide))).trans (tail_v77 m c)⟩

end Cert.KernelIdeal.Val

end
-- ==== Proof.KI.InputsV.lean ====
/-
  The two arrays the kernel's input windows stage, as the region finds them.

  Before the region the host transposes the predicted cloud, and builds the moved target cloud and transposes it, both
  from (batch, point, coordinate) to (batch, coordinate, point).  The moved target cloud is built by the same sixty-two
  operations as in the reference program, so it is the same term of the target cloud and the affine parameters.
-/
import proofs.«150051_j5411658793136_2_alg».proof.Proof.KI.Runs
import proofs.«150051_j5411658793136_2_alg».proof.Proof.RefTerms
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo

variable (m : (ℓ : Loc nD τ sig) → Buf (Elt Ideal) ℓ)

set_option maxHeartbeats 4000000 in
/-- The first input window's array is the transposed predicted cloud. -/
theorem V_v62 (c : Dev nD) : (V m c main_v62 : S16x3x4096.Idx → EReal)
    = transpose S16x3x4096 [0, 2, 1] (m ((c : Thread nD τ).loc main_arg0)) transposes_S16x4096x3_S16x3x4096_0_2_1 := by
  show StableHlo.after hostOps0 (fun b => m (c, b)) (Proc.devRef .tc main_v62) = _
  after_results_simp <;> rfl

set_option maxHeartbeats 40000000 in
/-- The second input window's array is the transposed moved target cloud. -/
theorem V_v63 (c : Dev nD) : (V m c main_v63 : S16x3x4096.Idx → EReal)
    = transpose S16x3x4096 [0, 2, 1]
        (Cert.RefSide.targMoving (m ((c : Thread nD τ).loc main_arg3)) (m ((c : Thread nD τ).loc main_arg5)))
        transposes_S16x4096x3_S16x3x4096_0_2_1 := by
  show StableHlo.after hostOps0 (fun b => m (c, b)) (Proc.devRef .tc main_v63) = _
  after_results_simp <;> rfl <;> (unfold Cert.RefSide.targMoving; rfl)

end Cert.KernelIdeal.Val

end
-- ==== Proof.KI.Inputs.lean ====
/-
  The kernel's input blocks read at an index.

  The grid has a point for each batch and each tile of 512 target points, t = 8 · batch + tile.  At a point the first
  window holds the whole transposed predicted cloud of the point's batch; the second holds the point's tile of the
  transposed moved target cloud of that batch.  A transposed array at (batch, coordinate, point) is the array at
  (batch, point, coordinate), and a block's entry is the array's entry at block index × block size + the position
  inside the block.
-/
import proofs.«150051_j5411658793136_2_alg».proof.Proof.KI.InputsV
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The transposed array read at (batch, coordinate, point) is the array at (batch, point, coordinate). -/
theorem transpose021_apply (x : S16x4096x3.Idx → EReal) (b : Fin 16) (d : Fin 3) (n : Fin 4096) :
    transpose S16x3x4096 [0, 2, 1] x transposes_S16x4096x3_S16x3x4096_0_2_1 (ix3 b d n) = x (ix3 b n d) :=
  transpose_apply [0, 2, 1] x transposes_S16x4096x3_S16x3x4096_0_2_1 (ix3 b d n) (ix3 b n d) (fun a =>
    match a with
    | ⟨0, _⟩ => rfl
    | ⟨1, _⟩ => rfl
    | ⟨2, _⟩ => rfl)

/-- The grid has 128 points. -/
theorem t_lt (t : Fin cfg0.N) : t.val < 128 := by
  have h : cfg0.N = 128 := N_0
  have := t.isLt
  omega

/-- The block indices of the two input windows at each grid point: the batch, and the target tile. -/
theorem idx_facts : ∀ t : Fin grid0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = t.val % 8 := by
  decide +kernel

/-- The first input window's block at a grid point is the predicted cloud of the point's batch, transposed. -/
theorem iblk0_apply (c : Dev nD) (t : Fin cfg0.N) (d : Fin 3) (n : Fin 4096) :
    iblk m c 0 t (ix3 0 d n)
      = m ((c : Thread nD τ).loc main_arg0) (ix3 ⟨t.val / 8, by have := t_lt t; omega⟩ n d) := by
  obtain ⟨e0, e1, e2, -, -, -⟩ := idx_facts t
  unfold iblk
  rw [View.read_apply]
  show (V m c main_v62 : S16x3x4096.Idx → EReal) _ = _
  rw [V_v62]
  refine (transpose_apply [0, 2, 1] _ transposes_S16x4096x3_S16x3x4096_0_2_1 _
    (ix3 ⟨t.val / 8, by have := t_lt t; omega⟩ n d) (fun a => ?_))
  match a with
  | ⟨0, _⟩ => show t.val / 8 = win0_0.index t (0 : Fin 3) * 1 + 1 * 0; omega
  | ⟨1, _⟩ => show d.val = win0_0.index t (1 : Fin 3) * 3 + 1 * d.val; omega
  | ⟨2, _⟩ => show n.val = win0_0.index t (2 : Fin 3) * 4096 + 1 * n.val; omega

/-- The second input window's block at a grid point is the point's tile of 512 points of the moved target cloud of the
    point's batch, transposed. -/
theorem iblk1_apply (c : Dev nD) (t : Fin cfg0.N) (d : Fin 3) (j : Fin 512) :
    iblk m c 1 t (ix3 0 d j)
      = Cert.RefSide.targMoving (m ((c : Thread nD τ).loc main_arg3)) (m ((c : Thread nD τ).loc main_arg5))
          (ix3 ⟨t.val / 8, by have := t_lt t; omega⟩ ⟨512 * (t.val % 8) + j.val, by have := j.isLt; omega⟩ d) := by
  obtain ⟨-, -, -, e0, e1, e2⟩ := idx_facts t
  unfold iblk
  rw [View.read_apply]
  show (V m c main_v63 : S16x3x4096.Idx → EReal) _ = _
  rw [V_v63]
  refine (transpose_apply [0, 2, 1] _ transposes_S16x4096x3_S16x3x4096_0_2_1 _
    (ix3 ⟨t.val / 8, by have := t_lt t; omega⟩ ⟨512 * (t.val % 8) + j.val, by have := j.isLt; omega⟩ d) (fun a => ?_))
  match a with
  | ⟨0, _⟩ => show t.val / 8 = win0_1.index t (0 : Fin 3) * 1 + 1 * 0; omega
  | ⟨1, _⟩ => show d.val = win0_1.index t (1 : Fin 3) * 3 + 1 * d.val; omega
  | ⟨2, _⟩ => show 512 * (t.val % 8) + j.val = win0_1.index t (2 : Fin 3) * 512 + 1 * j.val; omega

end Cert.KernelIdeal.Val

end
-- ==== Proof.KI.RunSpec.lean ====
/-
  The idealized kernel program's run, in specification form.

  The two input windows' blocks hold the predicted cloud and the moved target cloud (coordinates on axis 1, points on axis
  2: the host transposes both before the region), so after the region the prediction-side output array holds every predicted
  point's nearest-target squared distance and the target-side output array every target point's nearest-prediction squared
  distance; the host operations after the region average the two arrays into the point loss, compute the two auxiliary
  losses from the arguments alone, and weigh the three into the total.  No host operation writes an argument.
-/
import proofs.«150051_j5411658793136_2_alg».proof.Proof.KI.Final
import proofs.«150051_j5411658793136_2_alg».proof.Proof.KI.Tail
import proofs.«150051_j5411658793136_2_alg».proof.Proof.KI.Inputs

set_option maxRecDepth 16384

noncomputable section

namespace Cert.KernelIdeal.Val

open Cert.KernelIdeal Cert.KernelIdeal.Gen Cert.KernelIdeal.Fr Cert.Chamfer
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The predicted cloud. -/
abbrev cloudP (c : Dev nD) : SP.Idx → EReal := m ((c : Thread nD τ).loc main_arg0)
/-- The moved target cloud. -/
abbrev cloudT (c : Dev nD) : SP.Idx → EReal :=
  Cert.RefSide.targMoving (m ((c : Thread nD τ).loc main_arg3)) (m ((c : Thread nD τ).loc main_arg5))

/-- The two input windows' blocks hold the two clouds. -/
theorem blocks_hold (c : Dev nD) : Blocks m c (cloudP m c) (cloudT m c) :=
  ⟨fun t d n => iblk0_apply m c t d n, fun t d j => iblk1_apply m c t d j⟩

/-- Every weakly fair execution of the idealized kernel program terminates with its four results at the specification — the
    weighted total, the chamfer point loss of the two clouds, the two auxiliary losses — and its six arguments unchanged. -/
theorem kernel_run : θ_run defs (onTc (τ := τ) (main (F := Ideal))) ⟨m, fun _ => 0, ρ⟩ (fun r => ∀ c : Dev nD,
      r.2.mem ((c.tc : Thread nD τ).loc main_v82) = Cert.RefSide.total (fun _ => pointLoss (cloudP m c) (cloudT m c)) (Cert.RefSide.coeffLoss (m ((c.tc : Thread nD τ).loc main_arg1)) (m ((c.tc : Thread nD τ).loc main_arg4))) (Cert.RefSide.affineLoss (m ((c.tc : Thread nD τ).loc main_arg2)) (m ((c.tc : Thread nD τ).loc main_arg5)))
      ∧ r.2.mem ((c.tc : Thread nD τ).loc main_v69) = (fun _ => pointLoss (cloudP m c) (cloudT m c))
      ∧ r.2.mem ((c.tc : Thread nD τ).loc main_v73) = Cert.RefSide.coeffLoss (m ((c.tc : Thread nD τ).loc main_arg1)) (m ((c.tc : Thread nD τ).loc main_arg4))
      ∧ r.2.mem ((c.tc : Thread nD τ).loc main_v77) = Cert.RefSide.affineLoss (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    have B := blocks_hold m c
    obtain ⟨t82, t69, t73, t77⟩ := tail_post m c (cloudP m c) (cloudT m c) (final2 m c B) (final3 m c B) r h
    exact ⟨t82, t69, t73, t77,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Val

end
-- ==== Proof.RefAlg.lean ====
/-
  The expansion of a squared distance, over the extended reals.

  For two points with real coordinates, the sum of the squared norms minus twice the inner product is the sum of the
  squared coordinate differences: `(0 + Σ p·p) + (0 + Σ t·t) − 2 · Σ p·t = Σ (p − t)²`.  The identity needs the
  coordinates to be real: at an infinite coordinate the left side is not defined the way the right side is.  The
  binary word `0x40000000` is the number two; the word of all zeros is zero.
-/
import proofs.«150051_j5411658793136_2_alg».proof.Proof.Spec
import Idealize.ShloMosaic.PureOps.Ideal.Laws

noncomputable section

namespace Cert.RefSide

open Idealize.ShloMosaic

/-- The f32 pattern `0x40000000` is the real number two. -/
theorem ofBits_two_f32 : Ideal.ofBits .f32 0x40000000#32 = ((2 : ℝ) : EReal) := by
  simp [Ideal.ofBits, Ideal.ieee, -EReal.coe_mul]; norm_num

/-- Squared norms minus twice the inner product is the sum of squared differences, for real coordinates, in the
    association the programs use on each side. -/
theorem expand_sq (p t : Fin 3 → EReal) (hp : ∀ k, ∃ r : ℝ, p k = (r : EReal)) (ht : ∀ k, ∃ r : ℝ, t k = (r : EReal)) :
    ((Ideal.ofBits .f32 0x00000000#32 + ∑ k : Fin 3, p k * p k)
        + (Ideal.ofBits .f32 0x00000000#32 + ∑ k : Fin 3, t k * t k))
      - Ideal.ofBits .f32 0x40000000#32 * ∑ k : Fin 3, p k * t k
      = ((p 0 - t 0) * (p 0 - t 0) + (p 1 - t 1) * (p 1 - t 1)) + (p 2 - t 2) * (p 2 - t 2) := by
  choose pr hpr using hp
  choose tr htr using ht
  simp only [Fin.sum_univ_three, hpr, htr, Ideal.ofBits_zero_f32, ofBits_two_f32, zero_add]
  simp only [← EReal.coe_mul, ← EReal.coe_add, ← EReal.coe_sub]
  congr 1
  ring

end Cert.RefSide

end
-- ==== Proof.RefDist.lean ====
/-
  The reference's clamped pairwise distance, read at an index.

  At `(b, n, m)` the reference adds the squared norm of predicted point `n` to the squared norm of moved target
  point `m`, subtracts twice their inner product, and clamps the result below at zero.  When all coordinates are real
  this is the sum of the three squared coordinate differences, which is never negative, so the clamp changes nothing.
-/
import proofs.«150051_j5411658793136_2_alg».proof.Proof.Gen.ReferenceIdeal.Read
import proofs.«150051_j5411658793136_2_alg».proof.Proof.Spec
import proofs.«150051_j5411658793136_2_alg».proof.Proof.RefAlg
import Idealize.ShloMosaic.Lib.ValueIdx
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx Cert.Chamfer

/-- The squared-norm stage of the predicted points, traced back from `(b, n, m)`, reads coordinate `k` of point `(b, n)`. -/
theorem idx_pred_norm (b : Fin 16) (n m : Fin 4096) (k : Fin 3) :
    idx_main_v63 (idx_main_v66 (idx_main_v68 (ix3 b n m))) k = ix3 b n k :=
  funext fun a => Fin.ext (by match a with | ⟨0, _⟩ => rfl | ⟨1, _⟩ => rfl | ⟨2, _⟩ => rfl)

/-- The squared-norm stage of the target points, traced back from `(b, n, m)`, reads coordinate `k` of point `(b, m)`. -/
theorem idx_targ_norm (b : Fin 16) (n m : Fin 4096) (k : Fin 3) :
    idx_main_v65 (idx_main_v67 (idx_main_v69 (ix3 b n m))) k = ix3 b m k :=
  funext fun a => Fin.ext (by match a with | ⟨0, _⟩ => rfl | ⟨1, _⟩ => rfl | ⟨2, _⟩ => rfl)

/-- The inner product at `(b, n, m)` reads coordinate `k` of predicted point `(b, n)` … -/
theorem idx_inner_left (b : Fin 16) (n m : Fin 4096) (k : Fin 3) :
    lidx_main_v71 (ix3 b n m) k = ix3 b n k :=
  funext fun a => Fin.ext (by match a with | ⟨0, _⟩ => rfl | ⟨1, _⟩ => rfl | ⟨2, _⟩ => rfl)

/-- … and coordinate `k` of target point `(b, m)`. -/
theorem idx_inner_right (b : Fin 16) (n m : Fin 4096) (k : Fin 3) :
    ridx_main_v71 (ix3 b n m) k = ix3 b m k :=
  funext fun a => Fin.ext (by match a with | ⟨0, _⟩ => rfl | ⟨1, _⟩ => rfl | ⟨2, _⟩ => rfl)

/-- With real coordinates the clamped pairwise distance at `(b, n, m)` is the squared distance between predicted
    point `n` and moved target point `m` of batch `b`. -/
theorem clamped_dist_at (a0 a3 : (⟨S16x4096x3, .f32⟩ : BufTy).Contents (Elt Ideal)) (a5 : (⟨S16x9, .f32⟩ : BufTy).Contents (Elt Ideal))
    (h0 : AllReal a0) (hT : AllReal (val_main_v61 (F := Ideal) a3 a5)) (b : Fin 16) (n m : Fin 4096) :
    val_main_v76 (F := Ideal) a0 a3 a5 (ix3 b n m) = sqDist a0 (val_main_v61 (F := Ideal) a3 a5) b n m := by
  rw [val_main_v76_apply, val_main_v74_apply, val_main_v70_apply, val_main_v68_apply, val_main_v66_apply, val_main_v63_apply,
    val_main_v69_apply, val_main_v67_apply, val_main_v65_apply, val_main_v73_apply, val_main_v72_apply, val_main_v71_apply,
    val_main_v75_apply]
  simp only [val_main_v62_apply, val_main_v64_apply, val_main_cst_1_apply, val_main_cst_2_apply, val_main_cst_3_apply,
    val_main_cst_4_apply, idx_pred_norm, idx_targ_norm, idx_inner_left, idx_inner_right, Ideal.addf_def, Ideal.subf_def,
    Ideal.mulf_def, Ideal.maximumf_def, Ideal.ofBits_def]
  have key := expand_sq (fun k => a0 (ix3 b n k)) (fun k => val_main_v61 (F := Ideal) a3 a5 (ix3 b m k))
    (fun k => h0 _) (fun k => hT _)
  refine (congrArg (fun z => max z (Ideal.ofBits .f32 0x00000000#32)) key).trans ?_
  rw [Ideal.ofBits_zero_f32]
  exact max_eq_left (sqDist_nonneg a0 _ b n m)

end Cert.RefSide

end
-- ==== Proof.RefMin.lean ====
/-
  A minimum-reduction over one axis of a rank-3 array, read at a result index.

  Started from the top element, the fold of `min` over the coordinates of the reduced axis is the infimum of the
  entries along that axis.  Reducing the last axis of a `16 × 4096 × 4096` array leaves, at `(b, n)`, the infimum
  over `m` of the entries `(b, n, m)`; reducing the middle axis leaves, at `(b, m)`, the infimum over `n`.
-/
import proofs.«150051_j5411658793136_2_alg».proof.Proof.Gen.ReferenceIdeal
import Idealize.ShloMosaic.PureOps.Reduce
import Idealize.ShloMosaic.PureOps.Ideal.Laws
import Idealize.ShloMosaic.Lib.ValueIdx

noncomputable section

namespace Cert.RefSide

open Cert.ReferenceIdeal Cert.ReferenceIdeal.Gen Idealize.ShloMosaic Idealize.ShloMosaic.ValueIdx

/-- The f32 pattern `0x7F800000` is the top element. -/
theorem ofBits_inf_f32 : Ideal.ofBits .f32 0x7F800000#32 = (⊤ : EReal) := by
  simp [Ideal.ofBits, Ideal.ieee]

/-- A fold of `min` from the top element is the infimum. -/
theorem fold_min_top {ι : Type} (s : Finset ι) (f : ι → EReal) : s.fold min (⊤ : EReal) f = s.inf f := by
  classical
  induction s using Finset.induction_on with
  | empty => simp
  | insert a s ha ih => rw [Finset.fold_insert ha, Finset.inf_insert, ih]

/-- The index `(b, n)` with coordinate `k` put back on the last axis is `(b, n, k)`. -/
theorem lift_last (h : S16x4096x4096.Reduces [2] S16x4096) (b : Fin 16) (n : Fin 4096) (k : Fin (S16x4096x4096.size 2)) :
    h.lift (ix2 b n) k = ix3 b n (⟨k.val, k.isLt⟩ : Fin 4096) := by
  funext c; apply Fin.ext
  match c with
  | ⟨0, _⟩ => rfl
  | ⟨1, _⟩ => rfl
  | ⟨2, _⟩ => rfl

/-- The index `(b, m)` with coordinate `k` put back on the middle axis is `(b, k, m)`. -/
theorem lift_mid (h : S16x4096x4096.Reduces [1] S16x4096) (b : Fin 16) (m : Fin 4096) (k : Fin (S16x4096x4096.size 1)) :
    h.lift (ix2 b m) k = ix3 b (⟨k.val, k.isLt⟩ : Fin 4096) m := by
  funext c; apply Fin.ext
  match c with
  | ⟨0, _⟩ => rfl
  | ⟨1, _⟩ => rfl
  | ⟨2, _⟩ => rfl

/-- The minimum-reduction of the last axis from `+∞`, at `(b, n)`, is the infimum over the last coordinate. -/
theorem reduce_min_last (x : FVec Ideal S16x4096x4096 .f32) (b : Fin 16) (n : Fin 4096) :
    Host.reduce FloatOps.minimumf x (constant (F := Ideal) S_ .f32 0x7F800000#32) reducesTo_S16x4096x4096_S16x4096_d2 h_S_ (ix2 b n)
      = Finset.univ.inf fun m : Fin 4096 => x (ix3 b n m) := by
  have h : S16x4096x4096.Reduces [2] S16x4096 := by decide
  rw [Host.reduce_eq_fold_single FloatOps.minimumf x _ reducesTo_S16x4096x4096_S16x4096_d2 h h_S_]
  have hf : (x ∘ h.lift (ix2 b n)) = fun k : Fin 4096 => x (ix3 b n k) := funext fun k => congrArg x (lift_last h b n k)
  show Finset.fold min (Ideal.ofBits .f32 0x7F800000#32) (x ∘ h.lift (ix2 b n)) (Finset.univ : Finset (Fin 4096)) = _
  rw [hf, ofBits_inf_f32]
  exact fold_min_top _ _

/-- The minimum-reduction of the middle axis from `+∞`, at `(b, m)`, is the infimum over the middle coordinate. -/
theorem reduce_min_mid (x : FVec Ideal S16x4096x4096 .f32) (b : Fin 16) (m : Fin 4096) :
    Host.reduce FloatOps.minimumf x (constant (F := Ideal) S_ .f32 0x7F800000#32) reducesTo_S16x4096x4096_S16x4096_d1 h_S_ (ix2 b m)
      = Finset.univ.inf fun n : Fin 4096 => x (ix3 b n m) := by
  have h : S16x4096x4096.Reduces [1] S16x4096 := by decide
  rw [Host.reduce_eq_fold_single FloatOps.minimumf x _ reducesTo_S16x4096x4096_S16x4096_d1 h h_S_]
  have hf : (x ∘ h.lift (ix2 b m)) = fun k : Fin 4096 => x (ix3 b k m) := funext fun k => congrArg x (lift_mid h b m k)
  show Finset.fold min (Ideal.ofBits .f32 0x7F800000#32) (x ∘ h.lift (ix2 b m)) (Finset.univ : Finset (Fin 4096)) = _
  rw [hf, ofBits_inf_f32]
  exact fold_min_top _ _

end Cert.RefSide

end
-- ==== Proof.RefPoint.lean ====
/-
  The reference's point loss is the specification.

  Each predicted point's row of clamped pairwise distances is reduced to its infimum, each target point's column
  likewise; the two arrays of infima are summed from zero over all `16 · 4096` entries, divided by `65536`, and
  added.  With real coordinates the clamped distances are the squared distances, so this is the chamfer point loss of
  the predicted cloud and the moved target cloud.
-/
import proofs.«150051_j5411658793136_2_alg».proof.Proof.Gen.ReferenceIdeal.Read
import proofs.«150051_j5411658793136_2_alg».proof.Proof.Spec
import proofs.«150051_j5411658793136_2_alg».proof.Proof.RefTerms
import proofs.«150051_j5411658793136_2_alg».proof.Proof.RefDist
import proofs.«150051_j5411658793136_2_alg».proof.Proof.RefMin
import Idealize.ShloMosaic.Lib.ValueIdx
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx Cert.Chamfer

/-- The moved target cloud is the stage the point loss reads. -/
theorem targMoving_eq (a3 : FVec Ideal S16x4096x3 .f32) (a5 : FVec Ideal S16x9 .f32) :
    targMoving a3 a5 = val_main_v61 (F := Ideal) a3 a5 := rfl

/-- The row infimum of the clamped distances at `(b, n)` is the distance from predicted point `n` to its nearest
    target point. -/
theorem rowMin_at (a0 a3 : FVec Ideal S16x4096x3 .f32) (a5 : FVec Ideal S16x9 .f32)
    (h0 : AllReal a0) (hT : AllReal (val_main_v61 (F := Ideal) a3 a5)) (b : Fin 16) (n : Fin 4096) :
    val_main_v77 (F := Ideal) a0 a3 a5 (ix2 b n) = rowMin a0 (val_main_v61 (F := Ideal) a3 a5) b n := by
  refine (reduce_min_last (val_main_v76 (F := Ideal) a0 a3 a5) b n).trans ?_
  unfold rowMin
  exact congrArg (fun f => Finset.univ.inf f) (funext fun m => clamped_dist_at a0 a3 a5 h0 hT b n m)

/-- The column infimum of the clamped distances at `(b, m)` is the distance from target point `m` to its nearest
    predicted point. -/
theorem colMin_at (a0 a3 : FVec Ideal S16x4096x3 .f32) (a5 : FVec Ideal S16x9 .f32)
    (h0 : AllReal a0) (hT : AllReal (val_main_v61 (F := Ideal) a3 a5)) (b : Fin 16) (m : Fin 4096) :
    val_main_v80 (F := Ideal) a0 a3 a5 (ix2 b m) = colMin a0 (val_main_v61 (F := Ideal) a3 a5) b m := by
  refine (reduce_min_mid (val_main_v76 (F := Ideal) a0 a3 a5) b m).trans ?_
  unfold colMin
  exact congrArg (fun f => Finset.univ.inf f) (funext fun n => clamped_dist_at a0 a3 a5 h0 hT b n m)

/-- With real coordinates the reference's point loss is the chamfer point loss of the predicted cloud and the moved
    target cloud. -/
theorem pointLoss_read (a0 a3 : FVec Ideal S16x4096x3 .f32) (a5 : FVec Ideal S16x9 .f32)
    (h0 : AllReal a0) (hT : AllReal (targMoving a3 a5)) :
    val_main_v83 (F := Ideal) a0 a3 a5 = fun _ => pointLoss a0 (targMoving a3 a5) := by
  rw [targMoving_eq] at hT ⊢
  funext i
  rw [val_main_v83_apply, val_main_v79_apply, val_main_v82_apply, val_main_v78_apply, val_main_v81_apply, sum_idx2, sum_idx2]
  simp only [val_main_cst_6_apply, val_main_cst_7_apply, val_main_cst_9_apply, val_main_cst_10_apply, Ideal.ofBits_def,
    Ideal.addf_def, Ideal.hostDivf_def, rowMin_at a0 a3 a5 h0 hT, colMin_at a0 a3 a5 h0 hT]
  rfl

end Cert.RefSide

end
-- ==== Proof.RefRun.lean ====
/-
  The reference's run in specification form, and its frame.

  Every weakly fair execution of the reference terminates with its four results at the specification: the point loss
  is the chamfer point loss of the predicted cloud and the moved target cloud (given that both have real
  coordinates), the two auxiliary losses are their closed terms, the total is their weighted sum; the six arguments
  are unchanged.  The frame is the same run with the results dropped.
-/
import proofs.«150051_j5411658793136_2_alg».proof.Defs
import proofs.«150051_j5411658793136_2_alg».proof.Proof.Gen.ReferenceIdeal.Read
import proofs.«150051_j5411658793136_2_alg».proof.Proof.Gen.Pre_finite_inputs
import proofs.«150051_j5411658793136_2_alg».proof.Proof.Spec
import proofs.«150051_j5411658793136_2_alg».proof.Proof.RefTerms
import proofs.«150051_j5411658793136_2_alg».proof.Proof.RefPoint
import Idealize.ShloMosaic.Lib.StableHlo.Run

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo Cert.Chamfer

/-- The coefficient loss is its stage. -/
theorem coeffLoss_eq (a1 a4 : FVec Ideal S16x128 .f32) : coeffLoss a1 a4 = val_main_v87 (F := Ideal) a1 a4 := rfl

/-- The affine loss is its stage. -/
theorem affineLoss_eq (a2 a5 : FVec Ideal S16x9 .f32) : affineLoss a2 a5 = val_main_v91 (F := Ideal) a2 a5 := rfl

/-- The total is the weighted sum of the three loss stages. -/
theorem total_read (a0 : FVec Ideal S16x4096x3 .f32) (a1 : FVec Ideal S16x128 .f32) (a2 : FVec Ideal S16x9 .f32)
    (a3 : FVec Ideal S16x4096x3 .f32) (a4 : FVec Ideal S16x128 .f32) (a5 : FVec Ideal S16x9 .f32) :
    val_main_v96 (F := Ideal) a0 a1 a2 a3 a4 a5
      = total (val_main_v83 (F := Ideal) a0 a3 a5) (val_main_v87 (F := Ideal) a1 a4) (val_main_v91 (F := Ideal) a2 a5) := rfl

/-- The reference's run with its results at the specification. -/
theorem run_spec (m' : (ℓ : Loc nD τ sig) → Buf (Elt Ideal) ℓ) (ρ' : Dev nD → PrngReg)
    (h0 : ∀ c : Dev nD, AllReal (m' ((c.tc : Thread nD τ).loc main_arg0)))
    (hT : ∀ c : Dev nD, AllReal (targMoving (m' ((c.tc : Thread nD τ).loc main_arg3)) (m' ((c.tc : Thread nD τ).loc main_arg5)))) :
    θ_run (defs (F := Ideal)) (onTc (τ := τ) (main (F := Ideal))) ⟨m', fun _ => 0, ρ'⟩ (fun r => ∀ c : Dev nD,
      r.2.mem ((c.tc : Thread nD τ).loc main_v96) = total (fun _ => pointLoss (m' ((c.tc : Thread nD τ).loc main_arg0)) (targMoving (m' ((c.tc : Thread nD τ).loc main_arg3)) (m' ((c.tc : Thread nD τ).loc main_arg5)))) (coeffLoss (m' ((c.tc : Thread nD τ).loc main_arg1)) (m' ((c.tc : Thread nD τ).loc main_arg4))) (affineLoss (m' ((c.tc : Thread nD τ).loc main_arg2)) (m' ((c.tc : Thread nD τ).loc main_arg5)))
      ∧ r.2.mem ((c.tc : Thread nD τ).loc main_v83) = (fun _ => pointLoss (m' ((c.tc : Thread nD τ).loc main_arg0)) (targMoving (m' ((c.tc : Thread nD τ).loc main_arg3)) (m' ((c.tc : Thread nD τ).loc main_arg5))))
      ∧ r.2.mem ((c.tc : Thread nD τ).loc main_v87) = coeffLoss (m' ((c.tc : Thread nD τ).loc main_arg1)) (m' ((c.tc : Thread nD τ).loc main_arg4))
      ∧ r.2.mem ((c.tc : Thread nD τ).loc main_v91) = affineLoss (m' ((c.tc : Thread nD τ).loc main_arg2)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run defs _ _).mono (fun _ h c => by
    obtain ⟨h96, h83, h87, h91, hargs⟩ := h c
    have e83 := pointLoss_read (m' ((c.tc : Thread nD τ).loc main_arg0)) (m' ((c.tc : Thread nD τ).loc main_arg3)) (m' ((c.tc : Thread nD τ).loc main_arg5)) (h0 c) (hT c)
    refine ⟨?_, ?_, h87, h91, hargs⟩
    · rw [h96, val_main_v96_eq, total_read, e83]; rfl
    · rw [h83, val_main_v83_eq, e83]; rfl)
    (Cert.ReferenceIdeal.Value.run (F := Ideal) m' ρ')

/-- The reference leaves its six arguments unchanged. -/
theorem frame_ri : Cert.frame_ReferenceIdeal :=
  fun m ρ _ => (θ_run Cert.ReferenceIdeal.defs _ _).mono (fun _ h c => (h c).2.2.2.2)
    (Cert.ReferenceIdeal.Value.run (F := Ideal) m ρ)

end Cert.RefSide

end
-- ==== Proof.FinPre.lean ====
/-
  From the finiteness precondition to "every entry is a real number".

  The precondition is the conjunction of six tests, one per argument array: the absolute value of every entry is
  strictly below plus infinity.  Over the extended reals the absolute value of x is max x (-x); it is below plus
  infinity exactly when x is neither infinity, that is, when x is a real number.
-/
import proofs.«150051_j5411658793136_2_alg».proof.Pre_finite_inputs
import proofs.«150051_j5411658793136_2_alg».proof.Proof.Spec
import Idealize.ShloMosaic.Lib.ReduceAll

noncomputable section

namespace Cert.Finite

open Idealize.ShloMosaic Cert.Pre_finite_inputs Cert.Chamfer

/-- The shape with no axes has exactly one index. -/
instance : Subsingleton S_.Idx := ⟨fun a b => funext fun d => d.elim0⟩

/-- The bit pattern of plus infinity denotes the top element. -/
theorem ofBits_inf : Ideal.ofBits .f32 0x7F800000#32 = (⊤ : EReal) := by
  simp [Ideal.ofBits, Ideal.ieee]

/-- An extended real whose absolute value is strictly below plus infinity is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One test of the precondition, read back: if the all-reduction of the elementwise test is one, every entry is real. -/
theorem allReal_of_reduce {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32))) init hr hu j = 1#1) :
    AllReal x := fun i =>
  real_of_abs_lt (x i) (Host.reduce_andi_all _ init hr hu j e i)

theorem args_real [Cert.Pre_finite_inputs.Facts]
    (x0 : FVec Ideal S16x4096x3 .f32) (x1 : FVec Ideal S16x128 .f32) (x2 : FVec Ideal S16x9 .f32)
    (x3 : FVec Ideal S16x4096x3 .f32) (x4 : FVec Ideal S16x128 .f32) (x5 : FVec Ideal S16x9 .f32)
    (h : Cert.Pre_finite_inputs.fn (F := Ideal) x0 x1 x2 x3 x4 x5 = fun _ => 1#1) :
    AllReal x0 ∧ AllReal x1 ∧ AllReal x2 ∧ AllReal x3 ∧ AllReal x4 ∧ AllReal x5 := by
  have e := congrFun h (fun d => d.elim0)
  dsimp only [Cert.Pre_finite_inputs.fn, Cert.Pre_finite_inputs.fn_part1, andi] at e
  simp only [IntOp.andi_eq_one] at e
  obtain ⟨⟨⟨⟨⟨e0, e1⟩, e2⟩, e3⟩, e4⟩, e5⟩ := e
  exact ⟨allReal_of_reduce x0 _ _ _ _ _ e0, allReal_of_reduce x1 _ _ _ _ _ e1, allReal_of_reduce x2 _ _ _ _ _ e2,
    allReal_of_reduce x3 _ _ _ _ _ e3, allReal_of_reduce x4 _ _ _ _ _ e4, allReal_of_reduce x5 _ _ _ _ _ e5⟩

end Cert.Finite

end
-- ==== Proof.FinOps.lean ====
/-
  Every operation that builds the moved target cloud keeps "every entry is a real number".

  Three kinds of operation occur.  A layout operation (slice, reshape, broadcast, concatenation, transpose) only moves
  entries: each output entry is some input entry.  An elementwise operation (cosine, sine, negation, product, sum) maps
  reals to reals because the extended reals' operations restricted to the reals are the reals' own.  A contraction's
  output entry is zero plus a finite sum of products of input entries, and a finite sum of reals is a real.
-/
import proofs.«150051_j5411658793136_2_alg».proof.Proof.Spec
import Idealize.ShloMosaic.PureOps.Ideal.Laws

noncomputable section

namespace Cert.Finite

open Idealize.ShloMosaic Cert.Chamfer

variable {s t : Shape}

/-! ### Layout operations: each output entry is an input entry -/

theorem allReal_broadcastInDim (t : Shape) (dims : Fin s.rank → Fin t.rank) (h : s.BroadcastsInDim t dims)
    (x : s.Idx → EReal) (hx : AllReal x) : AllReal (broadcastInDim t dims h x) :=
  fun _ => hx _

theorem allReal_shapeCast (t : Shape) (x : s.Idx → EReal) (h : s.ShapeCasts t) (hx : AllReal x) :
    AllReal (shapeCast t x h) :=
  fun _ => hx _

theorem allReal_extractStridedSlice (t : Shape) (off : Fin s.rank → Nat) (x : s.Idx → EReal) (h : s.Slices off t)
    (hx : AllReal x) : AllReal (extractStridedSlice t off x h) :=
  fun _ => hx _

theorem allReal_transpose (t : Shape) (perm : List (Fin s.rank)) (x : s.Idx → EReal) (h : s.Transposes perm t)
    (hx : AllReal x) : AllReal (transpose t perm x h) :=
  fun _ => hx _

/-- A concatenation reads each output entry from one of its operands. -/
theorem allReal_concatenate (t : Shape) (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

/-! ### Constants -/

theorem ofBits_one_f32 : Ideal.ofBits .f32 0x3F800000#32 = ((1 : ℝ) : EReal) := by
  simp [Ideal.ofBits, Ideal.ieee, -EReal.coe_mul]; norm_num

theorem allReal_constant_zero (s : Shape) : AllReal (constant (F := Ideal) s .f32 0x00000000#32) :=
  fun _ => ⟨0, Ideal.ofBits_zero_f32⟩

theorem allReal_constant_one (s : Shape) : AllReal (constant (F := Ideal) s .f32 0x3F800000#32) :=
  fun _ => ⟨1, ofBits_one_f32⟩

/-! ### Elementwise operations -/

theorem allReal_cos (x : FVec Ideal s .f32) (hx : AllReal x) : AllReal (Host.cos x) := fun i => by
  obtain ⟨r, hr⟩ := hx i
  exact ⟨Real.cos r, by show Ideal.cos (x i) = _; rw [hr]; rfl⟩

theorem allReal_sin (x : FVec Ideal s .f32) (hx : AllReal x) : AllReal (Host.sin x) := fun i => by
  obtain ⟨r, hr⟩ := hx i
  exact ⟨Real.sin r, by show Ideal.sin (x i) = _; rw [hr]; rfl⟩

theorem allReal_negf (x : FVec Ideal s .f32) (hx : AllReal x) : AllReal (Host.negf x) := fun i => by
  obtain ⟨r, hr⟩ := hx i
  exact ⟨-r, by show -(x i) = _; rw [hr]; rfl⟩

theorem allReal_mulf (x y : FVec Ideal s .f32) (hx : AllReal x) (hy : AllReal y) : AllReal (mulf x y) := fun i => by
  obtain ⟨r, hr⟩ := hx i
  obtain ⟨q, hq⟩ := hy i
  exact ⟨r * q, by show x i * y i = _; rw [hr, hq, EReal.coe_mul]⟩

theorem allReal_addf (x y : FVec Ideal s .f32) (hx : AllReal x) (hy : AllReal y) : AllReal (addf x y) := fun i => by
  obtain ⟨r, hr⟩ := hx i
  obtain ⟨q, hq⟩ := hy i
  exact ⟨r + q, by show x i + y i = _; rw [hr, hq, EReal.coe_add]⟩

/-! ### Contractions -/

/-- A finite sum of reals is a real. -/
theorem real_sum {ι : Type} (S : Finset ι) (f : ι → EReal) (hf : ∀ k, ∃ r : ℝ, f k = (r : EReal)) :
    ∃ r : ℝ, ∑ k ∈ S, f k = (r : EReal) := by
  classical
  induction S using Finset.induction_on with
  | empty => exact ⟨0, by simp⟩
  | insert a S ha ih =>
    obtain ⟨r, hr⟩ := ih
    obtain ⟨q, hq⟩ := hf a
    exact ⟨q + r, by rw [Finset.sum_insert ha, hr, hq, EReal.coe_add]⟩

theorem allReal_dotGeneral {sl sr so : Shape} (d : DotDims sl sr so) (prec : Option ContractPrecision)
    (lhs : FVec Ideal sl .f32) (rhs : FVec Ideal sr .f32) (hl : AllReal lhs) (hr : AllReal rhs) :
    AllReal (Host.dotGeneral d prec lhs rhs) := fun j => by
  show ∃ r : ℝ, FloatOps.dotGeneral d prec .single lhs rhs j = (r : EReal)
  rw [Ideal.dotGeneral_apply]
  refine real_sum _ _ fun k => ?_
  obtain ⟨r, hr'⟩ := hl (d.lhsIdx j k)
  obtain ⟨q, hq⟩ := hr (d.rhsIdx j k)
  exact ⟨r * q, by rw [hr', hq, EReal.coe_mul]⟩

end Cert.Finite

end
-- ==== Proof.FinTarg.lean ====
/-
  The moved target cloud is made of real numbers when the target cloud and the affine parameters are.

  The cloud is a composition of layout operations, cosines, sines, negations, three contractions, a product and a
  sum, applied to the two argument arrays and to the constants zero and one.  Each operation keeps "every entry is a
  real number", so the composition does: the argument peels the operations off from the outermost inwards until it
  reaches an argument array or a constant.
-/
import proofs.«150051_j5411658793136_2_alg».proof.Proof.RefTerms
import proofs.«150051_j5411658793136_2_alg».proof.Proof.FinOps

noncomputable section

namespace Cert.Finite

open Idealize.ShloMosaic Cert.Chamfer Cert.ReferenceIdeal

/-- A list of arrays whose head is a real array and whose tail consists of real arrays consists of real arrays. -/
theorem forall_cons_sigma (s : Shape) (x : s.Idx → EReal) (l : List ((s : Shape) × (s.Idx → EReal)))
    (hx : AllReal x) (hl : ∀ p ∈ l, AllReal p.2) :
    ∀ p ∈ (⟨s, x⟩ :: l : List ((s : Shape) × (s.Idx → EReal))), AllReal p.2 :=
  List.forall_mem_cons.2 ⟨hx, hl⟩

theorem forall_nil_sigma : ∀ p ∈ ([] : List ((s : Shape) × (s.Idx → EReal))), AllReal p.2 :=
  fun _ hp => nomatch hp

/-- One step of the structural argument: peel the outermost operation, or close the goal at an argument or a constant. -/
macro "all_real_step" : tactic => `(tactic| with_reducible first
  | assumption
  | exact allReal_constant_zero _
  | exact allReal_constant_one _
  | apply allReal_addf
  | apply allReal_mulf
  | apply allReal_dotGeneral
  | apply allReal_shapeCast
  | apply allReal_broadcastInDim
  | apply allReal_extractStridedSlice
  | apply allReal_cos
  | apply allReal_sin
  | apply allReal_negf
  | apply allReal_concatenate
  | apply forall_cons_sigma
  | exact forall_nil_sigma)

set_option maxRecDepth 8192 in
/-- Every entry of the moved target cloud is a real number. -/
theorem targMoving_allReal (a3 : FVec Ideal S16x4096x3 .f32) (a5 : FVec Ideal S16x9 .f32)
    (h3 : AllReal a3) (h5 : AllReal a5) : AllReal (Cert.RefSide.targMoving a3 a5) := by
  unfold Cert.RefSide.targMoving
  repeat' all_real_step

end Cert.Finite

end
-- ==== Proof.lean ====
/-
  The proof of the certificate's claim.

  The kernel computes a symmetric chamfer loss between a predicted point cloud and an affinely moved target cloud, and two
  mean-squared auxiliary losses.  Both programs move the target cloud by the same host operations.  The kernel forms every
  squared distance as a sum of three squared coordinate differences, tile by tile of the target cloud, keeping a running
  minimum per predicted point across the tiles of a batch and writing a minimum per target point for each tile; the reference
  expands each squared distance as |p|² + |t|² − 2 p·t over the whole clouds, clamps at zero and takes the two minima.  Over the
  extended reals the two agree when the coordinates are real numbers: the expansion is the polynomial identity, a sum of
  squares is never negative so the clamps are the identity, and a minimum over all targets is the minimum of the tiles' minima.
  Finite inputs give real coordinates: the rotation's sines and cosines, the products and the sums of reals are reals.  The two
  means run over the same numbers arranged as [16, 1, 4096] on one side and [16, 4096] on the other; the auxiliary losses and
  the weighted total are the same operations on both sides.

  The three frames: each kernel program runs to the end, faults nowhere and leaves its six arguments unchanged (the region's
  body run once per case of its two conditionals over the grid; no host operation writes an argument); the reference's frame is
  its run with the results dropped.  The idealization rewrote nothing, so its soundness conjunct is trivial.
-/
import proofs.«150051_j5411658793136_2_alg».proof.Defs
import proofs.«150051_j5411658793136_2_alg».proof.Proof.Gen.Kernel
import proofs.«150051_j5411658793136_2_alg».proof.Proof.Gen.KernelIdeal
import proofs.«150051_j5411658793136_2_alg».proof.Proof.Gen.ReferenceIdeal
import proofs.«150051_j5411658793136_2_alg».proof.Proof.Gen.Pre_finite_inputs
import proofs.«150051_j5411658793136_2_alg».proof.Proof.KB.Frame
import proofs.«150051_j5411658793136_2_alg».proof.Proof.KI.RunSpec
import proofs.«150051_j5411658793136_2_alg».proof.Proof.RefRun
import proofs.«150051_j5411658793136_2_alg».proof.Proof.FinPre
import proofs.«150051_j5411658793136_2_alg».proof.Proof.FinTarg

noncomputable section

namespace Cert.Proof

open Idealize.ShloMosaic Idealize.SL.Sem Cert.Chamfer

/-- The kernel program as printed runs to the end and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The idealization rewrote no operation. -/
theorem preserves : Cert.preserves_Kernel_KernelIdeal := trivial

/-- At the ideal instance, from memories agreeing on finite arguments, both programs end with the same four results: the
    weighted total, the chamfer point loss of the predicted cloud and the moved target cloud, and the two auxiliary losses. -/
theorem algebraic : Cert.algebraic_KernelIdeal_ReferenceIdeal := by
  intro m ρ m' ρ' hpre hagree
  have hreal := fun c => Cert.Finite.args_real _ _ _ _ _ _ (hpre c)
  refine ⟨_, _, _, _, Cert.KernelIdeal.Val.kernel_run m ρ, ?_⟩
  have h0 : ∀ c : Dev Cert.ReferenceIdeal.nD, AllReal (m' ((c.tc : Thread Cert.ReferenceIdeal.nD Cert.ReferenceIdeal.τ).loc Cert.ReferenceIdeal.main_arg0)) :=
    fun c => by rw [(hagree c).1]; exact (hreal c).1
  have hT : ∀ c : Dev Cert.ReferenceIdeal.nD, AllReal (Cert.RefSide.targMoving
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg5))) :=
    fun c => by
      rw [(hagree c).2.2.2.1, (hagree c).2.2.2.2.2]
      exact Cert.Finite.targMoving_allReal _ _ (hreal c).2.2.2.1 (hreal c).2.2.2.2.2
  refine (θ_run Cert.ReferenceIdeal.defs _ _).mono (fun r h c => ?_) (Cert.RefSide.run_spec m' ρ' h0 hT)
  obtain ⟨e96, e83, e87, e91, eargs⟩ := h c
  obtain ⟨a0, a1, a2, a3, a4, a5⟩ := hagree c
  refine ⟨?_, ?_, ?_, ?_, eargs⟩
  · rw [e96, a0, a1, a2, a3, a4, a5]
  · rw [e83, a0, a3, a5]; rfl
  · rw [e87, a1, a4]
  · rw [e91, a2, a5]

theorem claim : Cert.Claim :=
  ⟨Cert.Kernel.Gen.facts, Cert.KernelIdeal.Gen.facts, Cert.ReferenceIdeal.Gen.facts, Cert.Pre_finite_inputs.Gen.facts,
    frame_k, frame_ki, Cert.RefSide.frame_ri, preserves, algebraic⟩

end Cert.Proof

end
